-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x8 : Shape := ⟨2, ![128, 8]⟩
abbrev S8 : Shape := ⟨1, ![8]⟩
abbrev S8x8 : Shape := ⟨2, ![8, 8]⟩
abbrev S8x4 : Shape := ⟨2, ![8, 4]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg8 : FVec F S8x4 .f32) (main_arg9 : FVec F S4 .f32) (main_v33 : IVec S_ 1) : IVec S_ 1 :=
  let main_v34 : FVec F S8x4 .f32 := Host.absf main_arg8
  let main_cst_12 : FVec F S_ .f32 := constant S_ .f32 0x7F800000#32
  let main_v35 : FVec F S8x4 .f32 := broadcastInDim S8x4 ![] bcast_S_S8x4 main_cst_12
  let main_v36 : IVec S8x4 1 := cmpf .olt main_v34 main_v35
  let main_c_13 : IVec S_ 1 := constantI S_ 1 1#1
  let main_v37 : IVec S_ 1 := (fun x v => Host.reduce IntOp.andi x v reducesTo_S8x4_S_d0_1 h_S_) main_v36 main_c_13
  let main_v38 : IVec S_ 1 := andi main_v33 main_v37
  let main_v39 : FVec F S4 .f32 := Host.absf main_arg9
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg5 : FVec F S8 .f32) (main_arg6 : FVec F S8x8 .f32) (main_arg7 : FVec F S8 .f32) (main_arg8 : FVec F S8x4 .f32) (main_arg9 : FVec F S4 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x8 .f32 := Host.absf main_arg6
  let main_cst_8 : FVec F S_ .f32 := constant S_ .f32 0x7F800000#32
  let main_v25 : FVec F S8x8 .f32 := broadcastInDim S8x8 ![] bcast_S_S8x8 main_cst_8
  let main_v26 : IVec S8x8 1 := cmpf .olt main_v24 main_v25
  let main_c_9 : IVec S_ 1 := constantI S_ 1 1#1
  let main_v27 : IVec S_ 1 := (fun x v => Host.reduce IntOp.andi x v reducesTo_S8x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x3200000 32) (main_arg2 : FVec F S128x8 .f32) (main_arg3 : FVec F S8 .f32) (main_arg4 : FVec F S8x8 .f32) (main_arg5 : FVec F S8 .f32) (main_arg6 : FVec F S8x8 .f32) (main_arg7 : FVec F S8 .f32) (main_arg8 : FVec F S8x4 .f32) (main_arg9 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x8 .f32 := Host.absf main_arg2
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x8 .f32 := Host.absf main_arg4
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x3200000 : Shape := ⟨2, ![2, 3200000]⟩
abbrev S128x8 : Shape := ⟨2, ![128, 8]⟩
abbrev S8 : Shape := ⟨1, ![8]⟩
abbrev S8x8 : Shape := ⟨2, ![8, 8]⟩
abbrev S8x4 : Shape := ⟨2, ![8, 4]⟩
abbrev S4 : Shape := ⟨1, ![4]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x8 : Shape := ⟨2, ![100000, 8]⟩
abbrev S10000x128 : Shape := ⟨2, ![10000, 128]⟩
abbrev S10000x8 : Shape := ⟨2, ![10000, 8]⟩
abbrev S3300000x8 : Shape := ⟨2, ![3300000, 8]⟩
abbrev S1x8 : Shape := ⟨2, ![1, 8]⟩
abbrev S1x4 : Shape := ⟨2, ![1, 4]⟩
abbrev S100000x4 : Shape := ⟨2, ![100000, 4]⟩
abbrev S10000x4 : Shape := ⟨2, ![10000, 4]⟩

abbrev nBuf : Space → Nat
  | .hbm => 108
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x8, .f32⟩
  | .hbm, ⟨3, _⟩ => ⟨S8, .f32⟩
  | .hbm, ⟨4, _⟩ => ⟨S8x8, .f32⟩
  | .hbm, ⟨5, _⟩ => ⟨S8, .f32⟩
  | .hbm, ⟨6, _⟩ => ⟨S8x8, .f32⟩
  | .hbm, ⟨7, _⟩ => ⟨S8, .f32⟩
  | .hbm, ⟨8, _⟩ => ⟨S8x4, .f32⟩
  | .hbm, ⟨9, _⟩ => ⟨S4, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S100000, .i32⟩
  | .hbm, ⟨15, _⟩ => ⟨S3300000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x8, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x8, .f32⟩
  | .hbm, ⟨56, _⟩ => ⟨S3300000x1, .f32⟩
  | .hbm, ⟨57, _⟩ => ⟨S3300000x8, .f32⟩
  | .hbm, ⟨58, _⟩ => ⟨S3300000x8, .f32⟩
  | .hbm, ⟨59, _⟩ => ⟨S_, .f32⟩
  | .hbm, ⟨60, _⟩ => ⟨S100000x8, .f32⟩
  | .hbm, ⟨61, _⟩ => ⟨S3300000x1, .i32⟩
  | .hbm, ⟨62, _⟩ => ⟨S100000x8, .f32⟩
  | .hbm, ⟨63, _⟩ => ⟨S1x8, .f32⟩
  | .hbm, ⟨64, _⟩ => ⟨S100000x8, .f32⟩
  | .hbm, ⟨65, _⟩ => ⟨S100000x8, .f32⟩
  | .hbm, ⟨66, _⟩ => ⟨S100000x8, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x8, .f32⟩
  | .hbm, ⟨76, _⟩ => ⟨S3300000x1, .f32⟩
  | .hbm, ⟨77, _⟩ => ⟨S3300000x8, .f32⟩
  | .hbm, ⟨78, _⟩ => ⟨S3300000x8, .f32⟩
  | .hbm, ⟨79, _⟩ => ⟨S_, .f32⟩
  | .hbm, ⟨80, _⟩ => ⟨S100000x8, .f32⟩
  | .hbm, ⟨81, _⟩ => ⟨S3300000x1, .i32⟩
  | .hbm, ⟨82, _⟩ => ⟨S100000x8, .f32⟩
  | .hbm, ⟨83, _⟩ => ⟨S1x8, .f32⟩
  | .hbm, ⟨84, _⟩ => ⟨S100000x8, .f32⟩
  | .hbm, ⟨85, _⟩ => ⟨S100000x8, .f32⟩
  | .hbm, ⟨86, _⟩ => ⟨S100000x8, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000x8, .f32⟩
  | .hbm, ⟨96, _⟩ => ⟨S3300000x1, .f32⟩
  | .hbm, ⟨97, _⟩ => ⟨S3300000x8, .f32⟩
  | .hbm, ⟨98, _⟩ => ⟨S3300000x8, .f32⟩
  | .hbm, ⟨99, _⟩ => ⟨S_, .f32⟩
  | .hbm, ⟨100, _⟩ => ⟨S100000x8, .f32⟩
  | .hbm, ⟨101, _⟩ => ⟨S3300000x1, .i32⟩
  | .hbm, ⟨102, _⟩ => ⟨S100000x8, .f32⟩
  | .hbm, ⟨103, _⟩ => ⟨S1x8, .f32⟩
  | .hbm, ⟨104, _⟩ => ⟨S100000x8, .f32⟩
  | .hbm, ⟨105, _⟩ => ⟨S100000x8, .f32⟩
  | .hbm, ⟨106, _⟩ => ⟨S1x4, .f32⟩
  | .hbm, ⟨107, _⟩ => ⟨S100000x4, .f32⟩
  | .local _ .vmem, ⟨0, _⟩ => ⟨S10000x128, .f32⟩
  | .local _ .vmem, ⟨1, _⟩ => ⟨S10000x128, .f32⟩
  | .local _ .vmem, ⟨2, _⟩ => ⟨S128x8, .f32⟩
  | .local _ .vmem, ⟨3, _⟩ => ⟨S10000x8, .f32⟩
  | .local _ .vmem, ⟨4, _⟩ => ⟨S10000x8, .f32⟩
  | .local _ .vmem, ⟨5, _⟩ => ⟨S10000x8, .f32⟩
  | .local _ .vmem, ⟨6, _⟩ => ⟨S10000x8, .f32⟩
  | .local _ .vmem, ⟨7, _⟩ => ⟨S8x8, .f32⟩
  | .local _ .vmem, ⟨8, _⟩ => ⟨S10000x8, .f32⟩
  | .local _ .vmem, ⟨9, _⟩ => ⟨S10000x8, .f32⟩
  | .local _ .vmem, ⟨10, _⟩ => ⟨S10000x8, .f32⟩
  | .local _ .vmem, ⟨11, _⟩ => ⟨S10000x8, .f32⟩
  | .local _ .vmem, ⟨12, _⟩ => ⟨S8x8, .f32⟩
  | .local _ .vmem, ⟨13, _⟩ => ⟨S10000x8, .f32⟩
  | .local _ .vmem, ⟨14, _⟩ => ⟨S10000x8, .f32⟩
  | .local _ .vmem, ⟨15, _⟩ => ⟨S10000x8, .f32⟩
  | .local _ .vmem, ⟨16, _⟩ => ⟨S10000x8, .f32⟩
  | .local _ .vmem, ⟨17, _⟩ => ⟨S8x4, .f32⟩
  | .local _ .vmem, ⟨18, _⟩ => ⟨S1x4, .f32⟩
  | .local _ .vmem, ⟨19, _⟩ => ⟨S10000x4, .f32⟩
  | .local _ .vmem, ⟨20, _⟩ => ⟨S10000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_8 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_11 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x4 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x8_S128x8_0_0 : ∀ a, (![0, 0] : Fin 2 → Nat) a + S128x8.size a ≤ S128x8.size a
  h_S128x8 : 0 < S128x8.numel
  inb_S10000x8_S10000x8_0_0 : ∀ a, (![0, 0] : Fin 2 → Nat) a + S10000x8.size a ≤ S10000x8.size a
  h_S10000x8 : 0 < S10000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  shapeCasts_S10000x8_S10000x8 : S10000x8.ShapeCasts S10000x8
  inb_S8x8_S8x8_0_0 : ∀ a, (![0, 0] : Fin 2 → Nat) a + S8x8.size a ≤ S8x8.size a
  h_S8x8 : 0 < S8x8.numel
  shapeCasts_S4_S1x4 : S4.ShapeCasts S1x4
  inb_S8x4_S8x4_0_0 : ∀ a, (![0, 0] : Fin 2 → Nat) a + S8x4.size a ≤ S8x4.size a
  h_S8x4 : 0 < S8x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  inb_S10000x4_S10000x4_0_0 : ∀ a, (![0, 0] : Fin 2 → Nat) a + S10000x4.size a ≤ S10000x4.size a
  h_S10000x4 : 0 < S10000x4.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x8_S10000x8_1_0_0_1_n_n_wf : DotDims.WF S10000x128 S128x8 S10000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S10000x8_S8x8_S10000x8_1_0_0_1_n_n_wf : DotDims.WF S10000x8 S8x8 S10000x8 [1] [0] [0] [1] [] []
  dot_S10000x8_S8x4_S10000x4_1_0_0_1_n_n_wf : DotDims.WF S10000x8 S8x4 S10000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8.size a ≤ S128x8.size a
  hwx0_1 : ∀ i : grid0.Coords, EltTy.bits .f32 = 32 ∨ (Rect.block (s := S128x8) S128x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x8.size a ≤ S100000x8.size a
  hwx0_2 : ∀ i : grid0.Coords, EltTy.bits .f32 = 32 ∨ (Rect.block (s := S100000x8) S10000x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x8.size a ≤ S100000x8.size a
  hwx1_0 : ∀ i : grid1.Coords, EltTy.bits .f32 = 32 ∨ (Rect.block (s := S100000x8) S10000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x8.size a ≤ S8x8.size a
  hwx1_1 : ∀ i : grid1.Coords, EltTy.bits .f32 = 32 ∨ (Rect.block (s := S8x8) S8x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x8.size a ≤ S100000x8.size a
  hwx1_2 : ∀ i : grid1.Coords, EltTy.bits .f32 = 32 ∨ (Rect.block (s := S100000x8) S10000x8.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x8.size a ≤ S100000x8.size a
  hwx2_0 : ∀ i : grid2.Coords, EltTy.bits .f32 = 32 ∨ (Rect.block (s := S100000x8) S10000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x8.size a ≤ S8x8.size a
  hwx2_1 : ∀ i : grid2.Coords, EltTy.bits .f32 = 32 ∨ (Rect.block (s := S8x8) S8x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x8.size a ≤ S100000x8.size a
  hwx2_2 : ∀ i : grid2.Coords, EltTy.bits .f32 = 32 ∨ (Rect.block (s := S100000x8) S10000x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x8.size a ≤ S100000x8.size a
  hwx3_0 : ∀ i : grid3.Coords, EltTy.bits .f32 = 32 ∨ (Rect.block (s := S100000x8) S10000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8x4.size a ≤ S8x4.size a
  hwx3_1 : ∀ i : grid3.Coords, EltTy.bits .f32 = 32 ∨ (Rect.block (s := S8x4) S8x4.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4.size a ≤ S1x4.size a
  hwx3_2 : ∀ i : grid3.Coords, EltTy.bits .f32 = 32 ∨ (Rect.block (s := S1x4) S1x4.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x4.size a ≤ S100000x4.size a
  hwx3_3 : ∀ i : grid3.Coords, EltTy.bits .f32 = 32 ∨ (Rect.block (s := S100000x4) S10000x4.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x8_S10000x8_1_0_0_1_n_n : DotDims S10000x128 S128x8 S10000x8 where
  lhsContracting := [1]
  rhsContracting := [0]
  lhsNonContracting := [0]
  rhsNonContracting := [1]
  lhsBatch := []
  rhsBatch := []
  wf := dot_S10000x128_S128x8_S10000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S10000x8_S8x8_S10000x8_1_0_0_1_n_n : DotDims S10000x8 S8x8 S10000x8 where
  lhsContracting := [1]
  rhsContracting := [0]
  lhsNonContracting := [0]
  rhsNonContracting := [1]
  lhsBatch := []
  rhsBatch := []
  wf := dot_S10000x8_S8x8_S10000x8_1_0_0_1_n_n_wf
def dot_S10000x8_S8x4_S10000x4_1_0_0_1_n_n : DotDims S10000x8 S8x4 S10000x4 where
  lhsContracting := [1]
  rhsContracting := [0]
  lhsNonContracting := [0]
  rhsNonContracting := [1]
  lhsBatch := []
  rhsBatch := []
  wf := dot_S10000x8_S8x4_S10000x4_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S8x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v62) S10000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S8x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S10000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S10000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S8x4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x4.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S10000x4.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x8 : Shape := ⟨2, ![128, 8]⟩
abbrev S8 : Shape := ⟨1, ![8]⟩
abbrev S8x8 : Shape := ⟨2, ![8, 8]⟩
abbrev S8x4 : Shape := ⟨2, ![8, 4]⟩
abbrev S4 : Shape := ⟨1, ![4]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x8 : Shape := ⟨2, ![100000, 8]⟩
abbrev S3300000x8 : Shape := ⟨2, ![3300000, 8]⟩
abbrev S1x8 : Shape := ⟨2, ![1, 8]⟩
abbrev S100000x4 : Shape := ⟨2, ![100000, 4]⟩
abbrev S1x4 : Shape := ⟨2, ![1, 4]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x3200000, .i32⟩
  | 2 => ⟨S128x8, .f32⟩
  | 3 => ⟨S8, .f32⟩
  | 4 => ⟨S8x8, .f32⟩
  | 5 => ⟨S8, .f32⟩
  | 6 => ⟨S8x8, .f32⟩
  | 7 => ⟨S8, .f32⟩
  | 8 => ⟨S8x4, .f32⟩
  | 9 => ⟨S4, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S100000x8, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x8, .f32⟩
  | 56 => ⟨S3300000x1, .f32⟩
  | 57 => ⟨S3300000x8, .f32⟩
  | 58 => ⟨S3300000x8, .f32⟩
  | 59 => ⟨S_, .f32⟩
  | 60 => ⟨S100000x8, .f32⟩
  | 61 => ⟨S3300000x1, .i32⟩
  | 62 => ⟨S100000x8, .f32⟩
  | 63 => ⟨S1x8, .f32⟩
  | 64 => ⟨S100000x8, .f32⟩
  | 65 => ⟨S100000x8, .f32⟩
  | 66 => ⟨S100000x8, .f32⟩
  | 67 => ⟨S100000x8, .f32⟩
  | 68 => ⟨S_, .i32⟩
  | 69 => ⟨S3300000, .i32⟩
  | 70 => ⟨S3300000, .i1⟩
  | 71 => ⟨S_, .i32⟩
  | 72 => ⟨S3300000, .i32⟩
  | 73 => ⟨S3300000, .i32⟩
  | 74 => ⟨S3300000, .i32⟩
  | 75 => ⟨S3300000x1, .i32⟩
  | 76 => ⟨S3300000, .f32⟩
  | 77 => ⟨S_, .i32⟩
  | 78 => ⟨S3300000, .i32⟩
  | 79 => ⟨S3300000, .i1⟩
  | 80 => ⟨S_, .i32⟩
  | 81 => ⟨S3300000, .i32⟩
  | 82 => ⟨S3300000, .i32⟩
  | 83 => ⟨S3300000, .i32⟩
  | 84 => ⟨S3300000x1, .i32⟩
  | 85 => ⟨S3300000, .f32⟩
  | 86 => ⟨S3300000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000x8, .f32⟩
  | 96 => ⟨S3300000x1, .f32⟩
  | 97 => ⟨S3300000x8, .f32⟩
  | 98 => ⟨S3300000x8, .f32⟩
  | 99 => ⟨S_, .f32⟩
  | 100 => ⟨S100000x8, .f32⟩
  | 101 => ⟨S3300000x1, .i32⟩
  | 102 => ⟨S100000x8, .f32⟩
  | 103 => ⟨S1x8, .f32⟩
  | 104 => ⟨S100000x8, .f32⟩
  | 105 => ⟨S100000x8, .f32⟩
  | 106 => ⟨S100000x8, .f32⟩
  | 107 => ⟨S100000x8, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000, .f32⟩
  | 117 => ⟨S_, .i32⟩
  | 118 => ⟨S3300000, .i32⟩
  | 119 => ⟨S3300000, .i1⟩
  | 120 => ⟨S_, .i32⟩
  | 121 => ⟨S3300000, .i32⟩
  | 122 => ⟨S3300000, .i32⟩
  | 123 => ⟨S3300000, .i32⟩
  | 124 => ⟨S3300000x1, .i32⟩
  | 125 => ⟨S3300000, .f32⟩
  | 126 => ⟨S3300000, .f32⟩
  | 127 => ⟨S_, .i32⟩
  | _ => ⟨S100000x128, .f32⟩

abbrev hbmTy0_1 (i : Nat) : BufTy := match i % 128 with
  | 0 => ⟨S3300000, .i32⟩
  | 1 => ⟨S3300000, .i1⟩
  | 2 => ⟨S_, .i32⟩
  | 3 => ⟨S3300000, .i32⟩
  | 4 => ⟨S3300000, .i32⟩
  | 5 => ⟨S3300000, .i32⟩
  | 6 => ⟨S3300000x1, .i32⟩
  | 7 => ⟨S3300000x8, .f32⟩
  | 8 => ⟨S3300000x1, .f32⟩
  | 9 => ⟨S3300000x8, .f32⟩
  | 10 => ⟨S3300000x8, .f32⟩
  | 11 => ⟨S_, .f32⟩
  | 12 => ⟨S100000x8, .f32⟩
  | 13 => ⟨S3300000x1, .i32⟩
  | 14 => ⟨S100000x8, .f32⟩
  | 15 => ⟨S1x8, .f32⟩
  | 16 => ⟨S100000x8, .f32⟩
  | 17 => ⟨S100000x8, .f32⟩
  | 18 => ⟨S100000x8, .f32⟩
  | 19 => ⟨S100000x4, .f32⟩
  | 20 => ⟨S1x4, .f32⟩
  | 21 => ⟨S100000x4, .f32⟩
  | 22 => ⟨S100000x4, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_15 : Ref sig .tc := ⟨.hbm, 108, rfl⟩
abbrev main_v81 : Ref sig .tc := ⟨.hbm, 109, rfl⟩
abbrev main_v82 : Ref sig .tc := ⟨.hbm, 110, rfl⟩
abbrev main_c_16 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_17 : Ref sig .tc := ⟨.hbm, 117, rfl⟩
abbrev main_v88 : Ref sig .tc := ⟨.hbm, 118, rfl⟩
abbrev main_v89 : Ref sig .tc := ⟨.hbm, 119, rfl⟩
abbrev main_c_18 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_19 : Ref sig .tc := ⟨.hbm, 127, rfl⟩
abbrev main_v96 : Ref sig .tc := ⟨.hbm, 128, rfl⟩
abbrev main_v97 : Ref sig .tc := ⟨.hbm, 129, rfl⟩
abbrev main_c_20 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_21 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  scatter_S100000_S3300000x1_S3300000_n_0_0_1_wf : ScatterDims.WF S100000 S3300000x1 S3300000 [] [0] [0] 1
  dot_S100000x128_S128x8_S100000x8_1_0_0_1_n_n_wf : DotDims.WF S100000x128 S128x8 S100000x8 [1] [0] [0] [1] [] []
  gather_S100000_S3300000x1_S3300000_n_0_n_n_0_1_1_wf : GatherDims.WF S100000 S3300000x1 S3300000 [] [0] [] [0] [] 1 ![1]
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S100000x8_S8x8_S100000x8_1_0_0_1_n_n_wf : DotDims.WF S100000x8 S8x8 S100000x8 [1] [0] [0] [1] [] []
  dot_S100000x8_S8x4_S100000x4_1_0_0_1_n_n_wf : DotDims.WF S100000x8 S8x4 S100000x4 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S100000x8_S8x8_S100000x8_1_0_0_1_n_n : DotDims S100000x8 S8x8 S100000x8 where
  lhsContracting := [1]
  rhsContracting := [0]
  lhsNonContracting := [0]
  rhsNonContracting := [1]
  lhsBatch := []
  rhsBatch := []
  wf := dot_S100000x8_S8x8_S100000x8_1_0_0_1_n_n_wf
def dot_S100000x8_S8x4_S100000x4_1_0_0_1_n_n : DotDims S100000x8 S8x4 S100000x4 where
  lhsContracting := [1]
  rhsContracting := [0]
  lhsNonContracting := [0]
  rhsNonContracting := [1]
  lhsBatch := []
  rhsBatch := []
  wf := dot_S100000x8_S8x4_S100000x4_1_0_0_1_n_n_wf

class Facts : Prop extends Facts₀ where

variable [Facts]
-- ==== Proof.KernelRun.lean ====
/-
  The idealized kernel's run, read at the end.

  @main is four kernel regions among four stretches of host operations. Its generated frame is a chain of eight
  segments whose last thread state holds every unscoped buffer at the contents `W8`: the launch memory pushed through
  the four stretches, each region's arrays replaced by what its write-backs leave. Here that chain is launched once
  more with the last reading left open: ANY property of the final memory that follows from "every unscoped buffer ends
  at `W8`" holds of every weakly fair execution. The result buffer is one of those buffers, so the program's result
  is `W8` read at it; the arguments are read back to the launch memory by the generated `W8_<arg>` lemmas.
-/
import proofs.«103893_j20023137534525_2_alg».proof.Proof.Gen.KernelIdeal.Frame

set_option maxRecDepth 16384

noncomputable section

namespace Cert.KernelIdeal.Ran

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and its final memory has every property `Q`
    that follows from each unscoped buffer holding the last boundary's contents. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W8 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := hQ)

/-- The run with the result named: the result buffer ends at the last boundary's contents read at it, and the ten
    arguments end as launched. -/
theorem run : θ_run defs (onTc (τ := τ) (main (F := F))) ⟨m, fun _ => 0, ρ⟩ (fun r => ∀ c : Dev nD,
      r.2.mem ((c.tc : Thread nD τ).loc main_v81) = W8 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_of m ρ (fun s h c =>
      ⟨h c _ (mem_uc main_v81 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Ran

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibRowsProduct.lean ====
/-
  The product of two matrices of extended reals as ONE function of its entries, and the ways a program
  spells it.

  `prod M K N x w` at the entry (r, c) is the sum over k < K of x (r, k) * w (k, c). On the extended reals this sum
  is a sum in a commutative monoid, so it does not depend on an order or a grouping, and nothing needs to be finite.

  * the host's `dot_general` with the plain dimension numbers is `prod`;
  * a `tpu.matmul` of the two operands cast to bf16, into the zero accumulator, is `prod` of the operands
    themselves (at the exact instance a change of float format is the identity);
  * ROW LOCALITY: an entry of the product reads one row of the left operand and one column of the right one, so
    the product of a block of rows with the whole right operand, at an entry of the block, is the product of the
    whole matrices at the entry the block's position sends it to. This is what lets a kernel tile the rows of the
    left operand over a grid and still compute the one product.
  * a row vector [1, N] added to every row (`addRow`), as the kernel spells it (a broadcast along the rows and a sum);
  * the hyperbolic tangent applied entry by entry is the same function whether the kernel's or the host's
    operation spells it.
-/
import Idealize.ShloMosaic.PureOps.Ideal.Laws
import Idealize.ShloMosaic.Lib.ValueIdx
import Idealize.ShloMosaic.Lib.Pipeline.Value
import proofs.«103893_j20023137534525_2_alg».proof.Proof.LibPlainDot

noncomputable section

namespace RowsProduct

open Idealize.ShloMosaic Idealize.ShloMosaic.ValueIdx

variable (M K N : Nat)

/-- The matrix product, entry by entry: at (r, c) the sum over k of x (r, k) * w (k, c). -/
def prod (x : FVec Ideal ⟨2, ![M, K]⟩ .f32) (w : FVec Ideal ⟨2, ![K, N]⟩ .f32) : FVec Ideal ⟨2, ![M, N]⟩ .f32 :=
  fun j => ∑ k : Fin K, (x (ix2 (j 0) k) : EReal) * w (ix2 k (j 1))

/-- The host's `dot_general` with plain dimension numbers is the matrix product. -/
theorem hostDot_eq (x : FVec Ideal ⟨2, ![M, K]⟩ .f32) (w : FVec Ideal ⟨2, ![K, N]⟩ .f32) :
    Host.dotGeneral (DotDims.plain M K N) none x w = prod M K N x w :=
  funext fun j => PlainDot.dotGeneral_apply M K N none .single x w j

/-- A `tpu.matmul` of the operands cast to bf16, into the zero accumulator, is the matrix product of the operands. -/
theorem matmulBf16_eq (x : FVec Ideal ⟨2, ![M, K]⟩ .f32) (w : FVec Ideal ⟨2, ![K, N]⟩ .f32)
    (h : FTy.bf16.bits < FTy.f32.bits) :
    matmul (DotDims.plain M K N) none (truncf .bf16 x h) (truncf .bf16 w h) (constant ⟨2, ![M, N]⟩ .f32 0x00000000#32)
      = prod M K N x w :=
  funext fun j => PlainDot.matmul_zero_apply M K N none (truncf .bf16 x h) (truncf .bf16 w h) j

/-- ROW LOCALITY. If row `j 0` of a block `xb` is row `i 0` of `X`, and column `j 1` of `wb` is column `i 1` of `W`,
    the product of the blocks at `j` is the product of the matrices at `i`. -/
theorem prod_rows {Mb Nb : Nat} (X : FVec Ideal ⟨2, ![M, K]⟩ .f32) (W : FVec Ideal ⟨2, ![K, N]⟩ .f32)
    (xb : FVec Ideal ⟨2, ![Mb, K]⟩ .f32) (wb : FVec Ideal ⟨2, ![K, Nb]⟩ .f32)
    (j : (⟨2, ![Mb, Nb]⟩ : Shape).Idx) (i : (⟨2, ![M, N]⟩ : Shape).Idx)
    (hx : ∀ k : Fin K, xb (ix2 (j 0) k) = X (ix2 (i 0) k)) (hw : ∀ k : Fin K, wb (ix2 k (j 1)) = W (ix2 k (i 1))) :
    prod Mb K Nb xb wb j = prod M K N X W i :=
  Finset.sum_congr rfl fun k _ => by rw [hx k, hw k]

/-- A row vector [1, N] added to every row of a matrix [M, N]. -/
def addRow (a : FVec Ideal ⟨2, ![M, N]⟩ .f32) (b : FVec Ideal ⟨2, ![1, N]⟩ .f32) : FVec Ideal ⟨2, ![M, N]⟩ .f32 :=
  fun i => (a i : EReal) + b (ix2 (0 : Fin 1) (i 1))

/-- The kernel's spelling of adding a row vector: the row broadcast along the rows, then an entrywise sum. -/
theorem addf_broadcastTo_eq (a : FVec Ideal ⟨2, ![M, N]⟩ .f32) (b : FVec Ideal ⟨2, ![1, N]⟩ .f32) (hN : N ≠ 1)
    (h : (⟨2, ![1, N]⟩ : Shape).Broadcasts ⟨2, ![M, N]⟩) :
    addf a (broadcastTo ⟨2, ![M, N]⟩ b h) = addRow M N a b := by
  funext i
  show (a i : EReal) + broadcastTo ⟨2, ![M, N]⟩ b h i = (a i : EReal) + b (ix2 (0 : Fin 1) (i 1))
  congr 1
  refine broadcastTo_apply b h i (ix2 (0 : Fin 1) (i 1)) fun a => ?_
  match a with
  | ⟨0, _⟩ => show (0 : Nat) = if (1 : Nat) = 1 then 0 else _; rw [if_pos rfl]
  | ⟨1, _⟩ => show (i 1).val = if N = 1 then 0 else (i 1).val; rw [if_neg hN]

/-- Row locality of `addRow`: an entry of a block of rows plus its bias entry is the whole matrix's entry plus the
    same bias entry, when the two summands agree. -/
theorem addRow_rows {Mb : Nat} (A : FVec Ideal ⟨2, ![M, N]⟩ .f32) (B : FVec Ideal ⟨2, ![1, N]⟩ .f32)
    (ab : FVec Ideal ⟨2, ![Mb, N]⟩ .f32) (bb : FVec Ideal ⟨2, ![1, N]⟩ .f32)
    (j : (⟨2, ![Mb, N]⟩ : Shape).Idx) (i : (⟨2, ![M, N]⟩ : Shape).Idx)
    (ha : ab j = A i) (hb : bb (ix2 (0 : Fin 1) (j 1)) = B (ix2 (0 : Fin 1) (i 1))) :
    addRow Mb N ab bb j = addRow M N A B i := by
  show (ab j : EReal) + bb (ix2 (0 : Fin 1) (j 1)) = (A i : EReal) + B (ix2 (0 : Fin 1) (i 1))
  rw [ha, hb]

/-- The hyperbolic tangent entry by entry: the kernel's operation and the host's are one function. -/
theorem tanh_eq_hostTanh {s : Shape} (x : FVec Ideal s .f32) : tanh x = Host.tanh x := rfl

end RowsProduct

end
-- ==== Proof.ProjectRows.lean ====
/-
  The first region of the idealized kernel: the node features x [100000, 128] times the first layer's weights
  [128, 8], the rows tiled over a grid of ten points, 10000 rows each, the weights fetched whole.

  Each point loads its block of rows and the weights, casts both to bf16 (the identity on exact values), multiplies
  them into a zero accumulator and stores the [10000, 8] block. An entry of a matrix product reads one row of the left
  operand, so block `t` of the result is rows 10000 t … of the whole product; the ten blocks cover the 100000 rows;
  hence the output array ends holding the whole product, which is what the host's `dot_general` computes.
  Stated at ANY contents `V` of the buffers at the region's entry.
-/
import proofs.«103893_j20023137534525_2_alg».proof.Proof.Gen.KernelIdeal.Frame
import proofs.«103893_j20023137534525_2_alg».proof.Proof.LibRowsProduct
import Idealize.ShloMosaic.Lib.Pipeline.Value
import Idealize.ShloMosaic.Lib.Tactic

set_option maxRecDepth 16384

noncomputable section

namespace Cert.KernelIdeal.ProjectRows

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A block's offsets inside its staging buffer are zero on both axes. -/
theorem hz : (![0, 0] : Fin 2 → Nat) = fun _ => 0 := funext fun a => by fin_cases a <;> rfl

/-- The body's one stored value: the product of the block of rows with the weights. -/
theorem pay_eq (x : Vec Ideal S10000x128 .f32) (w : Vec Ideal S128x8 .f32) :
    k0_pay1 x w = RowsProduct.prod 10000 128 8 x w := by
  unfold k0_pay1
  exact RowsProduct.matmulBf16_eq 10000 128 8 x w bitsLt_bf16_f32

/-- The index maps over the ten grid points: the input rows move with the output rows, block `t` at point `t`; the
    weights stay at block (0, 0); the columns are not tiled. -/
theorem idx : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of the whole product: rows 10000 t … 10000 t + 9999 of the left operand
    against the whole weights. -/
theorem flushed_eq (c : Dev nD) (t : Fin cfg0.N) :
    (dat0 V c).flushed 2 t = ((cfg0.win 2).blk t).view.read (Elt Ideal)
      (RowsProduct.prod 100000 128 8 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x8) hz]
  rw [pay_eq]
  funext j
  show RowsProduct.prod 10000 128 8 (iblk0 V c 0 t) (iblk0 V c 1 t) j
    = RowsProduct.prod 100000 128 8 (V c main_arg0) (V c main_arg2) (((cfg0.win 2).blk t).view.emb j)
  obtain ⟨e0, e1, e2, e3, e4, e5⟩ := idx t
  refine RowsProduct.prod_rows 100000 128 8 (V c main_arg0) (V c main_arg2) (iblk0 V c 0 t) (iblk0 V c 1 t) j _
    (fun k => ?_) (fun k => ?_)
  · show V c main_arg0 (((cfg0.win 0).blk t).view.emb (ix2 (j 0) k))
      = V c main_arg0 (ix2 ((((cfg0.win 2).blk t).view.emb j) 0) k)
    congr 1
    funext a
    apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg2 (((cfg0.win 1).blk t).view.emb (ix2 k (j 1)))
      = V c main_arg2 (ix2 k ((((cfg0.win 2).blk t).view.emb j) 1))
    congr 1
    funext a
    apply Fin.ext
    match a with
    | ⟨0, _⟩ => show win0_1.index t (0 : Fin 2) * 128 + 1 * k.val = k.val; omega
    | ⟨1, _⟩ => show win0_1.index t (1 : Fin 2) * 8 + 1 * (j 1).val = win0_2.index t (1 : Fin 2) * 8 + 1 * (j 1).val; omega

/-- An entry of the output array lies in point `t`'s block iff each coordinate lies in the block's range. -/
theorem mem_blk (t : Fin cfg0.N) (i : S100000x8.Idx) :
    i ∈ ((cfg0.win 2).blk t).view.set ↔ ∀ a : Fin 2, win0_2.index t a * S10000x8.size a ≤ (i a).val ∧ (i a).val < win0_2.index t a * S10000x8.size a + S10000x8.size a := by
  show i ∈ ((View.whole main_v29).slice (win0_2.rect t)).set ↔ _
  rw [View.set_slice_whole, Rect.mem_set_unit]
  exact Iff.rfl

/-- The ten blocks of 10000 rows cover the 100000 rows: row `r` lies in block `r / 10000`. -/
theorem cover (i : S100000x8.Idx) : ∃ t : Fin cfg0.N, (cfg0.win 2).flush t = true ∧ i ∈ ((cfg0.win 2).blk t).view.set := by
  have hi0 : (i 0).val < 100000 := (i 0).isLt
  have hi1 : (i 1).val < 8 := (i 1).isLt
  have hN : (i 0).val / 10000 < cfg0.N := by rw [show cfg0.N = 10 from N_0]; omega
  refine ⟨⟨(i 0).val / 10000, hN⟩, flush0_2 _, ?_⟩
  rw [mem_blk]
  obtain ⟨e0, e1, e2, e3, e4, e5⟩ := idx ⟨(i 0).val / 10000, hN⟩
  have e5' : win0_2.index ⟨(i 0).val / 10000, hN⟩ (0 : Fin 2) = (i 0).val / 10000 := e5
  intro a
  match a with
  | ⟨0, _⟩ => show win0_2.index _ (0 : Fin 2) * 10000 ≤ (i 0).val ∧ (i 0).val < win0_2.index _ (0 : Fin 2) * 10000 + 10000; rw [e5']; omega
  | ⟨1, _⟩ => show win0_2.index _ (1 : Fin 2) * 8 ≤ (i 1).val ∧ (i 1).val < win0_2.index _ (1 : Fin 2) * 8 + 8; rw [e4]; omega

/-- THE REGION'S RESULT: after the ten points the output array holds the host's `dot_general` of the whole left operand
    with the weights, as the region found them. -/
theorem result (c : Dev nD) : (dat0 V c).arrAt 2 cfg0.N
    = Host.dotGeneral (F := Ideal) (φ₁ := .f32) (φ₂ := .f32) (DotDims.plain 100000 128 8) none (V c main_arg0) (V c main_arg2) :=
  ((dat0 V c).arrAt_eq_of_cover 2 _ (fun t _ => flushed_eq V c t) cover).trans
    (RowsProduct.hostDot_eq 100000 128 8 (V c main_arg0) (V c main_arg2)).symm

end Cert.KernelIdeal.ProjectRows

end
-- ==== Proof.TanhProjectRowsA.lean ====
/-
  The second region of the idealized kernel: tanh of the aggregated features [100000, 8] (buffer main_v45) times the
  layer's weights [8, 8] (main_arg4), the rows tiled over a grid of ten points, 10000 rows each.

  Each point loads its block of rows, applies the hyperbolic tangent entry by entry, casts to bf16 (the identity on
  exact values), multiplies by the weights into a zero accumulator and stores the [10000, 8] block. The tangent acts
  entry by entry and an entry of a product reads one row of the left operand, so block `t` of the result is rows
  10000 t … of the product of the whole tanh-ed matrix with the weights; the ten blocks cover the rows.
  Stated at ANY contents `V` of the buffers at the region's entry.
-/
import proofs.«103893_j20023137534525_2_alg».proof.Proof.Gen.KernelIdeal.Frame
import proofs.«103893_j20023137534525_2_alg».proof.Proof.LibRowsProduct
import Idealize.ShloMosaic.Lib.Pipeline.Value
import Idealize.ShloMosaic.Lib.Tactic

set_option maxRecDepth 16384

noncomputable section

namespace Cert.KernelIdeal.TanhProjectRowsA

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A block's offsets inside its staging buffer are zero on both axes. -/
theorem hz : (![0, 0] : Fin 2 → Nat) = fun _ => 0 := funext fun a => by fin_cases a <;> rfl

/-- The body's one stored value: the product of the block of rows under the hyperbolic tangent with the weights. -/
theorem pay_eq (x : Vec Ideal S10000x8 .f32) (w : Vec Ideal S8x8 .f32) :
    k1_pay1 x w = RowsProduct.prod 10000 8 8 (Host.tanh x) w := by
  unfold k1_pay1
  rw [shapeCast_self]
  exact RowsProduct.matmulBf16_eq 10000 8 8 (tanh x) w bitsLt_bf16_f32

/-- The index maps over the ten grid points: the input rows move with the output rows, block `t` at point `t`; the
    weights stay at block (0, 0); the columns are not tiled. -/
theorem idx : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- What point `t` writes back is block `t` of the whole product: rows 10000 t … 10000 t + 9999 of the left operand
    against the whole weights. -/
theorem flushed_eq (c : Dev nD) (t : Fin cfg1.N) :
    (dat1 V c).flushed 2 t = ((cfg1.win 2).blk t).view.read (Elt Ideal)
      (RowsProduct.prod 100000 8 8 (Host.tanh (V c main_v45)) (V c main_arg4)) := by
  show (cfg1.win 2).cut (grid1.coords t) ((dat1 V c).after 2 t) = _
  rw [after1_2]
  unfold out1_2
  rw [View.canon_unit_zero hz]
  simp only [View.ld_unit_zero (S := S10000x8) hz, View.ld_unit_zero (S := S8x8) hz]
  rw [pay_eq]
  funext j
  show RowsProduct.prod 10000 8 8 (Host.tanh (iblk1 V c 0 t)) (iblk1 V c 1 t) j
    = RowsProduct.prod 100000 8 8 (Host.tanh (V c main_v45)) (V c main_arg4) (((cfg1.win 2).blk t).view.emb j)
  obtain ⟨e0, e1, e2, e3, e4, e5⟩ := idx t
  refine RowsProduct.prod_rows 100000 8 8 (Host.tanh (V c main_v45)) (V c main_arg4) (Host.tanh (iblk1 V c 0 t)) (iblk1 V c 1 t) j _
    (fun k => ?_) (fun k => ?_)
  · show Idealize.ShloMosaic.Ideal.tanh (V c main_v45 (((cfg1.win 0).blk t).view.emb (ix2 (j 0) k)))
      = Idealize.ShloMosaic.Ideal.tanh (V c main_v45 (ix2 ((((cfg1.win 2).blk t).view.emb j) 0) k))
    congr 2
    funext a
    apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 8 + 1 * k.val = k.val; omega
  · show V c main_arg4 (((cfg1.win 1).blk t).view.emb (ix2 k (j 1)))
      = V c main_arg4 (ix2 k ((((cfg1.win 2).blk t).view.emb j) 1))
    congr 1
    funext a
    apply Fin.ext
    match a with
    | ⟨0, _⟩ => show win1_1.index t (0 : Fin 2) * 8 + 1 * k.val = k.val; omega
    | ⟨1, _⟩ => show win1_1.index t (1 : Fin 2) * 8 + 1 * (j 1).val = win1_2.index t (1 : Fin 2) * 8 + 1 * (j 1).val; omega

/-- An entry of the output array lies in point `t`'s block iff each coordinate lies in the block's range. -/
theorem mem_blk (t : Fin cfg1.N) (i : S100000x8.Idx) :
    i ∈ ((cfg1.win 2).blk t).view.set ↔ ∀ a : Fin 2, win1_2.index t a * S10000x8.size a ≤ (i a).val ∧ (i a).val < win1_2.index t a * S10000x8.size a + S10000x8.size a := by
  show i ∈ ((View.whole main_v46).slice (win1_2.rect t)).set ↔ _
  rw [View.set_slice_whole, Rect.mem_set_unit]
  exact Iff.rfl

/-- The ten blocks of 10000 rows cover the 100000 rows: row `r` lies in block `r / 10000`. -/
theorem cover (i : S100000x8.Idx) : ∃ t : Fin cfg1.N, (cfg1.win 2).flush t = true ∧ i ∈ ((cfg1.win 2).blk t).view.set := by
  have hi0 : (i 0).val < 100000 := (i 0).isLt
  have hi1 : (i 1).val < 8 := (i 1).isLt
  have hN : (i 0).val / 10000 < cfg1.N := by rw [show cfg1.N = 10 from N_1]; omega
  refine ⟨⟨(i 0).val / 10000, hN⟩, flush1_2 _, ?_⟩
  rw [mem_blk]
  obtain ⟨e0, e1, e2, e3, e4, e5⟩ := idx ⟨(i 0).val / 10000, hN⟩
  have e5' : win1_2.index ⟨(i 0).val / 10000, hN⟩ (0 : Fin 2) = (i 0).val / 10000 := e5
  intro a
  match a with
  | ⟨0, _⟩ => show win1_2.index _ (0 : Fin 2) * 10000 ≤ (i 0).val ∧ (i 0).val < win1_2.index _ (0 : Fin 2) * 10000 + 10000; rw [e5']; omega
  | ⟨1, _⟩ => show win1_2.index _ (1 : Fin 2) * 8 ≤ (i 1).val ∧ (i 1).val < win1_2.index _ (1 : Fin 2) * 8 + 8; rw [e4]; omega

/-- THE REGION'S RESULT: after the ten points the output array holds the host's `dot_general` of the whole left operand under the
    hyperbolic tangent
    with the weights, as the region found them. -/
theorem result (c : Dev nD) : (dat1 V c).arrAt 2 cfg1.N
    = Host.dotGeneral (F := Ideal) (φ₁ := .f32) (φ₂ := .f32) (DotDims.plain 100000 8 8) none (Host.tanh (V c main_v45)) (V c main_arg4) :=
  ((dat1 V c).arrAt_eq_of_cover 2 _ (fun t _ => flushed_eq V c t) cover).trans
    (RowsProduct.hostDot_eq 100000 8 8 (Host.tanh (V c main_v45)) (V c main_arg4)).symm

end Cert.KernelIdeal.TanhProjectRowsA

end
-- ==== Proof.TanhProjectRowsB.lean ====
/-
  The third region of the idealized kernel: tanh of the aggregated features [100000, 8] (buffer main_v62) times the
  layer's weights [8, 8] (main_arg6), the rows tiled over a grid of ten points, 10000 rows each.

  Each point loads its block of rows, applies the hyperbolic tangent entry by entry, casts to bf16 (the identity on
  exact values), multiplies by the weights into a zero accumulator and stores the [10000, 8] block. The tangent acts
  entry by entry and an entry of a product reads one row of the left operand, so block `t` of the result is rows
  10000 t … of the product of the whole tanh-ed matrix with the weights; the ten blocks cover the rows.
  Stated at ANY contents `V` of the buffers at the region's entry.
-/
import proofs.«103893_j20023137534525_2_alg».proof.Proof.Gen.KernelIdeal.Frame
import proofs.«103893_j20023137534525_2_alg».proof.Proof.LibRowsProduct
import Idealize.ShloMosaic.Lib.Pipeline.Value
import Idealize.ShloMosaic.Lib.Tactic

set_option maxRecDepth 16384

noncomputable section

namespace Cert.KernelIdeal.TanhProjectRowsB

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A block's offsets inside its staging buffer are zero on both axes. -/
theorem hz : (![0, 0] : Fin 2 → Nat) = fun _ => 0 := funext fun a => by fin_cases a <;> rfl

/-- The body's one stored value: the product of the block of rows under the hyperbolic tangent with the weights. -/
theorem pay_eq (x : Vec Ideal S10000x8 .f32) (w : Vec Ideal S8x8 .f32) :
    k2_pay1 x w = RowsProduct.prod 10000 8 8 (Host.tanh x) w := by
  unfold k2_pay1
  rw [shapeCast_self]
  exact RowsProduct.matmulBf16_eq 10000 8 8 (tanh x) w bitsLt_bf16_f32

/-- The index maps over the ten grid points: the input rows move with the output rows, block `t` at point `t`; the
    weights stay at block (0, 0); the columns are not tiled. -/
theorem idx : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What point `t` writes back is block `t` of the whole product: rows 10000 t … 10000 t + 9999 of the left operand
    against the whole weights. -/
theorem flushed_eq (c : Dev nD) (t : Fin cfg2.N) :
    (dat2 V c).flushed 2 t = ((cfg2.win 2).blk t).view.read (Elt Ideal)
      (RowsProduct.prod 100000 8 8 (Host.tanh (V c main_v62)) (V c main_arg6)) := by
  show (cfg2.win 2).cut (grid2.coords t) ((dat2 V c).after 2 t) = _
  rw [after2_2]
  unfold out2_2
  rw [View.canon_unit_zero hz]
  simp only [View.ld_unit_zero (S := S10000x8) hz, View.ld_unit_zero (S := S8x8) hz]
  rw [pay_eq]
  funext j
  show RowsProduct.prod 10000 8 8 (Host.tanh (iblk2 V c 0 t)) (iblk2 V c 1 t) j
    = RowsProduct.prod 100000 8 8 (Host.tanh (V c main_v62)) (V c main_arg6) (((cfg2.win 2).blk t).view.emb j)
  obtain ⟨e0, e1, e2, e3, e4, e5⟩ := idx t
  refine RowsProduct.prod_rows 100000 8 8 (Host.tanh (V c main_v62)) (V c main_arg6) (Host.tanh (iblk2 V c 0 t)) (iblk2 V c 1 t) j _
    (fun k => ?_) (fun k => ?_)
  · show Idealize.ShloMosaic.Ideal.tanh (V c main_v62 (((cfg2.win 0).blk t).view.emb (ix2 (j 0) k)))
      = Idealize.ShloMosaic.Ideal.tanh (V c main_v62 (ix2 ((((cfg2.win 2).blk t).view.emb j) 0) k))
    congr 2
    funext a
    apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 8 + 1 * k.val = k.val; omega
  · show V c main_arg6 (((cfg2.win 1).blk t).view.emb (ix2 k (j 1)))
      = V c main_arg6 (ix2 k ((((cfg2.win 2).blk t).view.emb j) 1))
    congr 1
    funext a
    apply Fin.ext
    match a with
    | ⟨0, _⟩ => show win2_1.index t (0 : Fin 2) * 8 + 1 * k.val = k.val; omega
    | ⟨1, _⟩ => show win2_1.index t (1 : Fin 2) * 8 + 1 * (j 1).val = win2_2.index t (1 : Fin 2) * 8 + 1 * (j 1).val; omega

/-- An entry of the output array lies in point `t`'s block iff each coordinate lies in the block's range. -/
theorem mem_blk (t : Fin cfg2.N) (i : S100000x8.Idx) :
    i ∈ ((cfg2.win 2).blk t).view.set ↔ ∀ a : Fin 2, win2_2.index t a * S10000x8.size a ≤ (i a).val ∧ (i a).val < win2_2.index t a * S10000x8.size a + S10000x8.size a := by
  show i ∈ ((View.whole main_v63).slice (win2_2.rect t)).set ↔ _
  rw [View.set_slice_whole, Rect.mem_set_unit]
  exact Iff.rfl

/-- The ten blocks of 10000 rows cover the 100000 rows: row `r` lies in block `r / 10000`. -/
theorem cover (i : S100000x8.Idx) : ∃ t : Fin cfg2.N, (cfg2.win 2).flush t = true ∧ i ∈ ((cfg2.win 2).blk t).view.set := by
  have hi0 : (i 0).val < 100000 := (i 0).isLt
  have hi1 : (i 1).val < 8 := (i 1).isLt
  have hN : (i 0).val / 10000 < cfg2.N := by rw [show cfg2.N = 10 from N_2]; omega
  refine ⟨⟨(i 0).val / 10000, hN⟩, flush2_2 _, ?_⟩
  rw [mem_blk]
  obtain ⟨e0, e1, e2, e3, e4, e5⟩ := idx ⟨(i 0).val / 10000, hN⟩
  have e5' : win2_2.index ⟨(i 0).val / 10000, hN⟩ (0 : Fin 2) = (i 0).val / 10000 := e5
  intro a
  match a with
  | ⟨0, _⟩ => show win2_2.index _ (0 : Fin 2) * 10000 ≤ (i 0).val ∧ (i 0).val < win2_2.index _ (0 : Fin 2) * 10000 + 10000; rw [e5']; omega
  | ⟨1, _⟩ => show win2_2.index _ (1 : Fin 2) * 8 ≤ (i 1).val ∧ (i 1).val < win2_2.index _ (1 : Fin 2) * 8 + 8; rw [e4]; omega

/-- THE REGION'S RESULT: after the ten points the output array holds the host's `dot_general` of the whole left operand under the
    hyperbolic tangent
    with the weights, as the region found them. -/
theorem result (c : Dev nD) : (dat2 V c).arrAt 2 cfg2.N
    = Host.dotGeneral (F := Ideal) (φ₁ := .f32) (φ₂ := .f32) (DotDims.plain 100000 8 8) none (Host.tanh (V c main_v62)) (V c main_arg6) :=
  ((dat2 V c).arrAt_eq_of_cover 2 _ (fun t _ => flushed_eq V c t) cover).trans
    (RowsProduct.hostDot_eq 100000 8 8 (Host.tanh (V c main_v62)) (V c main_arg6)).symm

end Cert.KernelIdeal.TanhProjectRowsB

end
-- ==== Proof.ClassifierRows.lean ====
/-
  The fourth region of the idealized kernel, the classifier: tanh of the aggregated features [100000, 8] (buffer
  main_v79) times the classifier's weights [8, 4] (main_arg8), plus the bias as a row [1, 4] (main_v80), the rows tiled
  over a grid of ten points, 10000 rows each.

  Each point loads its block of rows, applies the hyperbolic tangent entry by entry, casts to bf16 (the identity on
  exact values), multiplies by the weights into a zero accumulator, adds the bias row broadcast along the rows and
  stores the [10000, 4] block. An entry of the result reads one row of the left operand and one entry of the bias row,
  so block `t` of the result is rows 10000 t … of the whole biased product; the ten blocks cover the rows.
  Stated at ANY contents `V` of the buffers at the region's entry.
-/
import proofs.«103893_j20023137534525_2_alg».proof.Proof.Gen.KernelIdeal.Frame
import proofs.«103893_j20023137534525_2_alg».proof.Proof.LibRowsProduct
import Idealize.ShloMosaic.Lib.Pipeline.Value
import Idealize.ShloMosaic.Lib.Tactic

set_option maxRecDepth 16384

noncomputable section

namespace Cert.KernelIdeal.ClassifierRows

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A block's offsets inside its staging buffer are zero on both axes. -/
theorem hz : (![0, 0] : Fin 2 → Nat) = fun _ => 0 := funext fun a => by fin_cases a <;> rfl

/-- The body's one stored value: the product of the tanh-ed block of rows with the weights, plus the bias row. -/
theorem pay_eq (x : Vec Ideal S10000x8 .f32) (w : Vec Ideal S8x4 .f32) (b : Vec Ideal S1x4 .f32) :
    k3_pay1 x w b = RowsProduct.addRow 10000 4 (RowsProduct.prod 10000 8 4 (Host.tanh x) w) b := by
  unfold k3_pay1
  rw [shapeCast_self, shapeCast_self]
  refine Eq.trans ?_ (RowsProduct.addf_broadcastTo_eq 10000 4 (RowsProduct.prod 10000 8 4 (Host.tanh x) w) b (by decide)
    broadcasts_S1x4_S10000x4)
  exact congrArg (fun a => addf a (broadcastTo S10000x4 b broadcasts_S1x4_S10000x4))
    (RowsProduct.matmulBf16_eq 10000 8 4 (tanh x) w bitsLt_bf16_f32)

/-- The index maps over the ten grid points: the input rows move with the output rows, block `t` at point `t`; the
    weights and the bias row stay at block (0, 0); the columns are not tiled. -/
theorem idx : ∀ t : Fin cfg3.N, win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (1 : Fin 2) = 0
    ∧ win3_3.index t (0 : Fin 2) = t.val :=
  (by decide +kernel : ∀ t : Fin grid3.N, _)

/-- What point `t` writes back is block `t` of the whole biased product. -/
theorem flushed_eq (c : Dev nD) (t : Fin cfg3.N) :
    (dat3 V c).flushed 3 t = ((cfg3.win 3).blk t).view.read (Elt Ideal)
      (RowsProduct.addRow 100000 4 (RowsProduct.prod 100000 8 4 (Host.tanh (V c main_v79)) (V c main_arg8)) (V c main_v80)) := by
  show (cfg3.win 3).cut (grid3.coords t) ((dat3 V c).after 3 t) = _
  rw [after3_3]
  unfold out3_3
  rw [View.canon_unit_zero hz]
  simp only [View.ld_unit_zero (S := S10000x8) hz, View.ld_unit_zero (S := S8x4) hz, View.ld_unit_zero (S := S1x4) hz]
  rw [pay_eq]
  funext j
  show RowsProduct.addRow 10000 4 (RowsProduct.prod 10000 8 4 (Host.tanh (iblk3 V c 0 t)) (iblk3 V c 1 t)) (iblk3 V c 2 t) j
    = RowsProduct.addRow 100000 4 (RowsProduct.prod 100000 8 4 (Host.tanh (V c main_v79)) (V c main_arg8)) (V c main_v80)
        (((cfg3.win 3).blk t).view.emb j)
  obtain ⟨e0, e1, e2, e3, e4, e5, e6, e7⟩ := idx t
  refine RowsProduct.addRow_rows 100000 4 _ (V c main_v80) _ (iblk3 V c 2 t) j _ ?_ ?_
  · refine RowsProduct.prod_rows 100000 8 4 (Host.tanh (V c main_v79)) (V c main_arg8) (Host.tanh (iblk3 V c 0 t)) (iblk3 V c 1 t) j _
      (fun k => ?_) (fun k => ?_)
    · show Idealize.ShloMosaic.Ideal.tanh (V c main_v79 (((cfg3.win 0).blk t).view.emb (ix2 (j 0) k)))
        = Idealize.ShloMosaic.Ideal.tanh (V c main_v79 (ix2 ((((cfg3.win 3).blk t).view.emb j) 0) k))
      congr 2
      funext a
      apply Fin.ext
      match a with
      | ⟨0, _⟩ => show win3_0.index t (0 : Fin 2) * 10000 + 1 * (j 0).val = win3_3.index t (0 : Fin 2) * 10000 + 1 * (j 0).val; omega
      | ⟨1, _⟩ => show win3_0.index t (1 : Fin 2) * 8 + 1 * k.val = k.val; omega
    · show V c main_arg8 (((cfg3.win 1).blk t).view.emb (ix2 k (j 1)))
        = V c main_arg8 (ix2 k ((((cfg3.win 3).blk t).view.emb j) 1))
      congr 1
      funext a
      apply Fin.ext
      match a with
      | ⟨0, _⟩ => show win3_1.index t (0 : Fin 2) * 8 + 1 * k.val = k.val; omega
      | ⟨1, _⟩ => show win3_1.index t (1 : Fin 2) * 4 + 1 * (j 1).val = win3_3.index t (1 : Fin 2) * 4 + 1 * (j 1).val; omega
  · show V c main_v80 (((cfg3.win 2).blk t).view.emb (ix2 (0 : Fin 1) (j 1)))
      = V c main_v80 (ix2 (0 : Fin 1) ((((cfg3.win 3).blk t).view.emb j) 1))
    congr 1
    funext a
    apply Fin.ext
    match a with
    | ⟨0, _⟩ => show win3_2.index t (0 : Fin 2) * 1 + 1 * 0 = 0; omega
    | ⟨1, _⟩ => show win3_2.index t (1 : Fin 2) * 4 + 1 * (j 1).val = win3_3.index t (1 : Fin 2) * 4 + 1 * (j 1).val; omega

/-- An entry of the output array lies in point `t`'s block iff each coordinate lies in the block's range. -/
theorem mem_blk (t : Fin cfg3.N) (i : S100000x4.Idx) :
    i ∈ ((cfg3.win 3).blk t).view.set ↔ ∀ a : Fin 2, win3_3.index t a * S10000x4.size a ≤ (i a).val ∧ (i a).val < win3_3.index t a * S10000x4.size a + S10000x4.size a := by
  show i ∈ ((View.whole main_v81).slice (win3_3.rect t)).set ↔ _
  rw [View.set_slice_whole, Rect.mem_set_unit]
  exact Iff.rfl

/-- The ten blocks of 10000 rows cover the 100000 rows: row `r` lies in block `r / 10000`. -/
theorem cover (i : S100000x4.Idx) : ∃ t : Fin cfg3.N, (cfg3.win 3).flush t = true ∧ i ∈ ((cfg3.win 3).blk t).view.set := by
  have hi0 : (i 0).val < 100000 := (i 0).isLt
  have hi1 : (i 1).val < 4 := (i 1).isLt
  have hN : (i 0).val / 10000 < cfg3.N := by rw [show cfg3.N = 10 from N_3]; omega
  refine ⟨⟨(i 0).val / 10000, hN⟩, flush3_3 _, ?_⟩
  rw [mem_blk]
  obtain ⟨e0, e1, e2, e3, e4, e5, e6, e7⟩ := idx ⟨(i 0).val / 10000, hN⟩
  have e7' : win3_3.index ⟨(i 0).val / 10000, hN⟩ (0 : Fin 2) = (i 0).val / 10000 := e7
  intro a
  match a with
  | ⟨0, _⟩ => show win3_3.index _ (0 : Fin 2) * 10000 ≤ (i 0).val ∧ (i 0).val < win3_3.index _ (0 : Fin 2) * 10000 + 10000; rw [e7']; omega
  | ⟨1, _⟩ => show win3_3.index _ (1 : Fin 2) * 4 ≤ (i 1).val ∧ (i 1).val < win3_3.index _ (1 : Fin 2) * 4 + 4; rw [e6]; omega

/-- THE REGION'S RESULT: after the ten points the output array holds the host's `dot_general` of the whole tanh-ed left
    operand with the weights, plus the bias row on every row, as the region found them. -/
theorem result (c : Dev nD) : (dat3 V c).arrAt 3 cfg3.N
    = RowsProduct.addRow 100000 4 (Host.dotGeneral (F := Ideal) (φ₁ := .f32) (φ₂ := .f32) (DotDims.plain 100000 8 4) none (Host.tanh (V c main_v79)) (V c main_arg8)) (V c main_v80) :=
  ((dat3 V c).arrAt_eq_of_cover 3 _ (fun t _ => flushed_eq V c t) cover).trans
    (congrArg (fun a => RowsProduct.addRow 100000 4 a (V c main_v80))
      (RowsProduct.hostDot_eq 100000 8 4 (Host.tanh (V c main_v79)) (V c main_arg8)).symm)

end Cert.KernelIdeal.ClassifierRows

end
-- ==== Proof.Gcn.lean ====
/-
  The graph convolution both programs compute, written once.

  The graph has 100000 nodes and 3200000 directed edges given as two rows of node numbers (sources, destinations); every
  node also gets a self-loop, so there are 3300000 arcs: `src` and `dst` are the edge rows followed by 0 … 99999.
  The degree of a node is the number of arcs into it; `dinv` is degree^(-1/2) with the degree clamped below by 1, and
  an arc's weight `norm` is dinv(source) * dinv(destination) (the symmetric normalisation). Node numbers index by
  jax's convention (a negative number counts from the end: `col` adds 100000 to negative entries and shapes the
  result as a column of start indices).

  One layer's aggregation `agg e h b`: every arc carries the 8 features of its source row of `h`, scaled by the arc's
  weight, into its destination; the arcs into a node are added up starting from zero, and the bias `b` is added to
  every row. The network is three such layers, each on `tanh` of the previous one times that layer's weights (the
  first on the node features times the first weights), and a linear classifier on `tanh` of the last.

  Everything here is the host's own operations; nothing is evaluated. The idealized reference IS `out` of its
  arguments by definition (ReferenceIsGcn.lean proves it by unfolding), and the idealized kernel reaches the same term with
  its four row-tiled regions in place of the four products.
-/
import proofs.«103893_j20023137534525_2_alg».proof.ReferenceIdeal
import proofs.«103893_j20023137534525_2_alg».proof.Proof.Gen.ReferenceIdeal

noncomputable section

namespace Cert.ReferenceIdeal.Gcn

open Cert.ReferenceIdeal Cert.ReferenceIdeal.Gen Idealize.ShloMosaic

variable {F : FTy → Type} [FloatOps F]

/-- An array of 32-bit integers of shape `s`. -/
abbrev I32 (F : FTy → Type) (s : Shape) := (⟨s, .i32⟩ : BufTy).Contents (Elt F)
/-- An array of f32 of shape `s`. -/
abbrev F32 (F : FTy → Type) (s : Shape) := (⟨s, .f32⟩ : BufTy).Contents (Elt F)

/-- The arcs' source nodes: the edges' first row, then the self-loops 0 … 99999. -/
def src (e : I32 F S2x3200000) : I32 F S3300000 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The arcs' destination nodes: the edges' second row, then the self-loops 0 … 99999. -/
def dst (e : I32 F S2x3200000) : I32 F S3300000 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- Node numbers as a column of start indices, a negative number counted from the end (plus 100000). -/
def col (i : I32 F S3300000) : I32 F S3300000x1 :=
  broadcastInDim S3300000x1 ![0] bcast_S3300000_S3300000x1_0
    (select (cmpi .slt i (broadcastInDim S3300000 ![] bcast_S_S3300000 (constantI S_ 32 0#32)))
      (addi i (broadcastInDim S3300000 ![] bcast_S_S3300000 (constantI S_ 32 100000#32))) i)

/-- degree^(-1/2) per node: the arcs into each node counted (ones scatter-added from zero), clamped below by 1. -/
def dinv (e : I32 F S2x3200000) : F32 F S100000 :=
  Host.rsqrt (maximumf
    (Host.scatterAdd scatter_S100000_S3300000x1_S3300000_n_0_0_1
      (broadcastInDim S100000 ![] bcast_S_S100000 (constant S_ .f32 0x00000000#32))
      (broadcastInDim S3300000x1 ![0] bcast_S3300000_S3300000x1_0 (dst e))
      (broadcastInDim S3300000 ![] bcast_S_S3300000 (constant S_ .f32 0x3F800000#32)))
    (broadcastInDim S100000 ![] bcast_S_S100000 (constant S_ .f32 0x3F800000#32)))

/-- An arc's weight: dinv at its source times dinv at its destination. -/
def norm (e : I32 F S2x3200000) : F32 F S3300000 :=
  mulf (Host.gather gather_S100000_S3300000x1_S3300000_n_0_n_n_0_1_1 (dinv e) (col (src e)))
    (Host.gather gather_S100000_S3300000x1_S3300000_n_0_n_n_0_1_1 (dinv e) (col (dst e)))

/-- One aggregation over given arcs `s → d` with weights `nrm`: the source rows of `h` gathered, scaled by the arc's
    weight, scatter-added at the destinations from zero; the bias added to every row. -/
def aggWith (s d : I32 F S3300000) (nrm : F32 F S3300000) (h : F32 F S100000x8) (b : F32 F S8) : F32 F S100000x8 :=
  addf
    (Host.scatterAdd scatter_S100000x8_S3300000x1_S3300000x8_1_0_0_1
      (broadcastInDim S100000x8 ![] bcast_S_S100000x8 (constant S_ .f32 0x00000000#32))
      (broadcastInDim S3300000x1 ![0] bcast_S3300000_S3300000x1_0 d)
      (mulf (Host.gather gather_S100000x8_S3300000x1_S3300000x8_1_0_n_n_0_1_18 h (col s))
        (broadcastInDim S3300000x8 ![0, 1] bcast_S3300000x1_S3300000x8_0_1
          (broadcastInDim S3300000x1 ![0] bcast_S3300000_S3300000x1_0 nrm))))
    (broadcastInDim S100000x8 ![0, 1] bcast_S1x8_S100000x8_0_1 (broadcastInDim S1x8 ![1] bcast_S8_S1x8_1 b))

/-- One layer's aggregation on the graph `e`. -/
def agg (e : I32 F S2x3200000) (h : F32 F S100000x8) (b : F32 F S8) : F32 F S100000x8 :=
  aggWith (src e) (dst e) (norm e) h b

/-- The three aggregated layers before the classifier: each on `tanh` of the one before times its weights. -/
def layer1 (x : F32 F S100000x128) (e : I32 F S2x3200000) (W1 : F32 F S128x8) (b1 : F32 F S8) : F32 F S100000x8 :=
  agg e (Host.dotGeneral dot_S100000x128_S128x8_S100000x8_1_0_0_1_n_n none x W1) b1
def layer2 (x : F32 F S100000x128) (e : I32 F S2x3200000) (W1 : F32 F S128x8) (b1 : F32 F S8) (W2 : F32 F S8x8) (b2 : F32 F S8) :
    F32 F S100000x8 :=
  agg e (Host.dotGeneral dot_S100000x8_S8x8_S100000x8_1_0_0_1_n_n none (Host.tanh (layer1 x e W1 b1)) W2) b2
def layer3 (x : F32 F S100000x128) (e : I32 F S2x3200000) (W1 : F32 F S128x8) (b1 : F32 F S8) (W2 : F32 F S8x8) (b2 : F32 F S8)
    (W3 : F32 F S8x8) (b3 : F32 F S8) : F32 F S100000x8 :=
  agg e (Host.dotGeneral dot_S100000x8_S8x8_S100000x8_1_0_0_1_n_n none (Host.tanh (layer2 x e W1 b1 W2 b2)) W3) b3

/-- The network's result: the classifier on `tanh` of the third layer, the classifier's bias on every row. -/
def out (x : F32 F S100000x128) (e : I32 F S2x3200000) (W1 : F32 F S128x8) (b1 : F32 F S8) (W2 : F32 F S8x8) (b2 : F32 F S8)
    (W3 : F32 F S8x8) (b3 : F32 F S8) (Wc : F32 F S8x4) (bc : F32 F S4) : F32 F S100000x4 :=
  addf (Host.dotGeneral dot_S100000x8_S8x4_S100000x4_1_0_0_1_n_n none (Host.tanh (layer3 x e W1 b1 W2 b2 W3 b3)) Wc)
    (broadcastInDim S100000x4 ![0, 1] bcast_S1x4_S100000x4_0_1 (broadcastInDim S1x4 ![1] bcast_S4_S1x4_1 bc))

end Cert.ReferenceIdeal.Gcn

end
-- ==== Proof.Stretches.lean ====
/-
  The idealized kernel's four stretches of host operations, read at the buffers the regions and the later stretches use.

  Between its regions the kernel runs the same host operations as the reference. From ANY contents `Wp` of the buffers
  at a stretch's start:
  * the first stretch leaves the arcs' sources, destinations and weights (`Gcn.src`, `Gcn.dst`, `Gcn.norm` of the edge
    array) in three buffers that every later stretch reads;
  * each of the next three stretches leaves one layer's aggregation (`Gcn.aggWith`) of the features the region before it
    wrote, over those arcs, with that layer's bias; the last one also leaves the classifier's bias as a row [1, 4].
  Each is the fold of the stretch's operations read at one buffer; the operations are the host's own, unevaluated.
-/
import proofs.«103893_j20023137534525_2_alg».proof.Proof.Gen.KernelIdeal.Launch
import proofs.«103893_j20023137534525_2_alg».proof.Proof.Gcn
import Idealize.ShloMosaic.Lib.StableHlo.Run
import Idealize.ShloMosaic.PureOps.Ideal

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo

variable (Wp : Valuation τ sig (Elt Ideal))

/-- After the first stretch: the arcs' sources. -/
theorem sources : StableHlo.after (hostOps0 (F := Ideal)) Wp (Proc.devRef .tc main_v5)
    = Cert.ReferenceIdeal.Gcn.src (F := Ideal) (Wp (Proc.devRef .tc main_arg1)) := by
  after_results_simp
  rfl

/-- After the first stretch: the arcs' destinations. -/
theorem destinations : StableHlo.after (hostOps0 (F := Ideal)) Wp (Proc.devRef .tc main_v6)
    = Cert.ReferenceIdeal.Gcn.dst (F := Ideal) (Wp (Proc.devRef .tc main_arg1)) := by
  after_results_simp
  rfl

/-- After the first stretch: the arcs' weights. -/
theorem weights : StableHlo.after (hostOps0 (F := Ideal)) Wp (Proc.devRef .tc main_v28)
    = Cert.ReferenceIdeal.Gcn.norm (F := Ideal) (Wp (Proc.devRef .tc main_arg1)) := by
  after_results_simp
  rfl

/-- After the second stretch: the first layer's aggregation of what the first region wrote. -/
theorem aggregate1 : StableHlo.after (hostOps1 (F := Ideal)) Wp (Proc.devRef .tc main_v45)
    = Cert.ReferenceIdeal.Gcn.aggWith (F := Ideal) (Wp (Proc.devRef .tc main_v5)) (Wp (Proc.devRef .tc main_v6))
        (Wp (Proc.devRef .tc main_v28)) (Wp (Proc.devRef .tc main_v29)) (Wp (Proc.devRef .tc main_arg3)) := by
  after_results_simp
  rfl

/-- After the third stretch: the second layer's aggregation of what the second region wrote. -/
theorem aggregate2 : StableHlo.after (hostOps2 (F := Ideal)) Wp (Proc.devRef .tc main_v62)
    = Cert.ReferenceIdeal.Gcn.aggWith (F := Ideal) (Wp (Proc.devRef .tc main_v5)) (Wp (Proc.devRef .tc main_v6))
        (Wp (Proc.devRef .tc main_v28)) (Wp (Proc.devRef .tc main_v46)) (Wp (Proc.devRef .tc main_arg5)) := by
  after_results_simp
  rfl

/-- After the fourth stretch: the third layer's aggregation of what the third region wrote. -/
theorem aggregate3 : StableHlo.after (hostOps3 (F := Ideal)) Wp (Proc.devRef .tc main_v79)
    = Cert.ReferenceIdeal.Gcn.aggWith (F := Ideal) (Wp (Proc.devRef .tc main_v5)) (Wp (Proc.devRef .tc main_v6))
        (Wp (Proc.devRef .tc main_v28)) (Wp (Proc.devRef .tc main_v63)) (Wp (Proc.devRef .tc main_arg7)) := by
  after_results_simp
  rfl

/-- After the fourth stretch: the classifier's bias [4] as a row [1, 4]. -/
theorem biasRow : StableHlo.after (hostOps3 (F := Ideal)) Wp (Proc.devRef .tc main_v80)
    = shapeCast S1x4 (Wp (Proc.devRef .tc main_arg9)) shapeCasts_S4_S1x4 := by
  after_results_simp
  rfl

end Cert.KernelIdeal.Stretches

end
-- ==== Proof.LibBiasRow.lean ====
/-
  A bias vector added to every row of a matrix, in the two spellings a program uses.

  A vector `bc` of N entries added to every row of an [M, N] matrix `a`:
  * reshaped to a row [1, N] and added with `RowsProduct.addRow` (a kernel that takes the bias as a [1, N] operand);
  * broadcast [N] → [1, N] → [M, N] and added entrywise (the host's `a + bc`).
  Both are `a (r, c) + bc c` at every entry, on any values.
-/
import proofs.«103893_j20023137534525_2_alg».proof.Proof.LibRowsProduct
import Idealize.ShloMosaic.Lib.Pipeline.Value

noncomputable section

namespace RowsProduct

open Idealize.ShloMosaic Idealize.ShloMosaic.ValueIdx

/-- The reshaped row added by `addRow` is the host's two broadcasts and entrywise sum. -/
theorem addRow_reshape_eq (M N : Nat) (a : FVec Ideal ⟨2, ![M, N]⟩ .f32) (bc : FVec Ideal ⟨1, ![N]⟩ .f32) (hN : N ≠ 1)
    (hs : (⟨1, ![N]⟩ : Shape).ShapeCasts ⟨2, ![1, N]⟩)
    (h1 : (⟨1, ![N]⟩ : Shape).BroadcastsInDim ⟨2, ![1, N]⟩ ![1])
    (h2 : (⟨2, ![1, N]⟩ : Shape).BroadcastsInDim ⟨2, ![M, N]⟩ ![0, 1]) :
    addRow M N a (shapeCast ⟨2, ![1, N]⟩ bc hs)
      = addf a (broadcastInDim ⟨2, ![M, N]⟩ ![0, 1] h2 (broadcastInDim ⟨2, ![1, N]⟩ ![1] h1 bc)) := by
  funext i
  show (a i : EReal) + shapeCast ⟨2, ![1, N]⟩ bc hs (ix2 (0 : Fin 1) (i 1))
    = (a i : EReal) + broadcastInDim ⟨2, ![M, N]⟩ ![0, 1] h2 (broadcastInDim ⟨2, ![1, N]⟩ ![1] h1 bc) i
  congr 1
  refine (shapeCast_addUnit_apply ![N] bc hs (ix2 (0 : Fin 1) (i 1))).trans ?_
  refine Eq.symm ((broadcastInDim_apply ![0, 1] h2 _ i (ix2 (0 : Fin 1) (i 1)) ?_).trans
    ((broadcastInDim_apply ![1] h1 bc (ix2 (0 : Fin 1) (i 1)) (ix1 (i 1)) ?_).trans ?_))
  · intro a
    match a with
    | ⟨0, _⟩ => show (0 : Nat) = if (1 : Nat) = 1 then 0 else _; rw [if_pos rfl]
    | ⟨1, _⟩ => show (i 1).val = if N = 1 then 0 else (i 1).val; rw [if_neg hN]
  · intro a
    match a with
    | ⟨0, _⟩ => show (i 1).val = if N = 1 then 0 else (i 1).val; rw [if_neg hN]
  · congr 1
    funext a
    match a with
    | ⟨0, _⟩ => rfl

end RowsProduct

end
-- ==== Proof.KernelNet.lean ====
/-
  The idealized kernel's result as the graph convolution `Gcn.out` of its arguments.

  The generated frame names the buffers' contents at the eight segment boundaries, `W1` … `W8`: a stretch of host
  operations folds its operations over the contents before it, a region replaces its output array by what its
  write-backs leave. Walking from the launch:
  * the first stretch leaves the arcs' sources, destinations and weights; no later stretch or region writes those three
    buffers, nor any argument, so they read the same at every later boundary (`arcs_…`, `kept_…`);
  * each region's output array is the product of its left operand (under tanh from the second region on) with its
    weights (the four row-tiling files), read at the region's entry contents;
  * each later stretch is one layer's aggregation of the region's output before it (Stretches.lean).
  So the three aggregated layers are `Gcn.layer1`, `layer2`, `layer3` of the arguments, and the last region leaves the
  classifier on tanh of the third, its bias reshaped to a row and added to every row: `Gcn.out`, where the host adds the
  same bias through two broadcasts.
-/
import proofs.«103893_j20023137534525_2_alg».proof.Proof.KernelRun
import proofs.«103893_j20023137534525_2_alg».proof.Proof.ProjectRows
import proofs.«103893_j20023137534525_2_alg».proof.Proof.TanhProjectRowsA
import proofs.«103893_j20023137534525_2_alg».proof.Proof.TanhProjectRowsB
import proofs.«103893_j20023137534525_2_alg».proof.Proof.ClassifierRows
import proofs.«103893_j20023137534525_2_alg».proof.Proof.Stretches
import proofs.«103893_j20023137534525_2_alg».proof.Proof.LibBiasRow

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## What stays put -/

/-- Argument `main_arg0` is untouched up to boundary 1: no stretch writes it and no region before has it as an array. -/
theorem kept_main_arg0_1 : W1 m ρ c (Proc.devRef .tc main_arg0) = m ((c.tc : Thread nD τ).loc main_arg0) :=
  calc W1 m ρ c (Proc.devRef .tc main_arg0)
    _ = W0 m ρ c (Proc.devRef .tc main_arg0) := by
          show StableHlo.after (hostOps0 (F := Ideal)) (W0 m ρ c) (Proc.devRef .tc main_arg0) = _
          after_results_simp
    _ = m ((c.tc : Thread nD τ).loc main_arg0) := rfl

/-- Argument `main_arg2` is untouched up to boundary 1: no stretch writes it and no region before has it as an array. -/
theorem kept_main_arg2_1 : W1 m ρ c (Proc.devRef .tc main_arg2) = m ((c.tc : Thread nD τ).loc main_arg2) :=
  calc W1 m ρ c (Proc.devRef .tc main_arg2)
    _ = W0 m ρ c (Proc.devRef .tc main_arg2) := by
          show StableHlo.after (hostOps0 (F := Ideal)) (W0 m ρ c) (Proc.devRef .tc main_arg2) = _
          after_results_simp
    _ = m ((c.tc : Thread nD τ).loc main_arg2) := rfl

/-- Argument `main_arg3` is untouched up to boundary 2: no stretch writes it and no region before has it as an array. -/
theorem kept_main_arg3_2 : W2 m ρ c (Proc.devRef .tc main_arg3) = m ((c.tc : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by
          show StableHlo.after (hostOps0 (F := Ideal)) (W0 m ρ c) (Proc.devRef .tc main_arg3) = _
          after_results_simp
    _ = m ((c.tc : Thread nD τ).loc main_arg3) := rfl

/-- Argument `main_arg4` is untouched up to boundary 3: no stretch writes it and no region before has it as an array. -/
theorem kept_main_arg4_3 : W3 m ρ c (Proc.devRef .tc main_arg4) = m ((c.tc : Thread nD τ).loc main_arg4) :=
  calc W3 m ρ c (Proc.devRef .tc main_arg4)
    _ = W2 m ρ c (Proc.devRef .tc main_arg4) := by
          show StableHlo.after (hostOps1 (F := Ideal)) (W2 m ρ c) (Proc.devRef .tc main_arg4) = _
          after_results_simp
    _ = W1 m ρ c (Proc.devRef .tc main_arg4) := W2_of_ne m ρ c main_arg4 (by decide)
    _ = W0 m ρ c (Proc.devRef .tc main_arg4) := by
          show StableHlo.after (hostOps0 (F := Ideal)) (W0 m ρ c) (Proc.devRef .tc main_arg4) = _
          after_results_simp
    _ = m ((c.tc : Thread nD τ).loc main_arg4) := rfl

/-- Argument `main_arg5` is untouched up to boundary 4: no stretch writes it and no region before has it as an array. -/
theorem kept_main_arg5_4 : W4 m ρ c (Proc.devRef .tc main_arg5) = m ((c.tc : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by
          show StableHlo.after (hostOps1 (F := Ideal)) (W2 m ρ c) (Proc.devRef .tc main_arg5) = _
          after_results_simp
    _ = W1 m ρ c (Proc.devRef .tc main_arg5) := W2_of_ne m ρ c main_arg5 (by decide)
    _ = W0 m ρ c (Proc.devRef .tc main_arg5) := by
          show StableHlo.after (hostOps0 (F := Ideal)) (W0 m ρ c) (Proc.devRef .tc main_arg5) = _
          after_results_simp
    _ = m ((c.tc : Thread nD τ).loc main_arg5) := rfl

/-- Argument `main_arg6` is untouched up to boundary 5: no stretch writes it and no region before has it as an array. -/
theorem kept_main_arg6_5 : W5 m ρ c (Proc.devRef .tc main_arg6) = m ((c.tc : Thread nD τ).loc main_arg6) :=
  calc W5 m ρ c (Proc.devRef .tc main_arg6)
    _ = W4 m ρ c (Proc.devRef .tc main_arg6) := by
          show StableHlo.after (hostOps2 (F := Ideal)) (W4 m ρ c) (Proc.devRef .tc main_arg6) = _
          after_results_simp
    _ = W3 m ρ c (Proc.devRef .tc main_arg6) := W4_of_ne m ρ c main_arg6 (by decide)
    _ = W2 m ρ c (Proc.devRef .tc main_arg6) := by
          show StableHlo.after (hostOps1 (F := Ideal)) (W2 m ρ c) (Proc.devRef .tc main_arg6) = _
          after_results_simp
    _ = W1 m ρ c (Proc.devRef .tc main_arg6) := W2_of_ne m ρ c main_arg6 (by decide)
    _ = W0 m ρ c (Proc.devRef .tc main_arg6) := by
          show StableHlo.after (hostOps0 (F := Ideal)) (W0 m ρ c) (Proc.devRef .tc main_arg6) = _
          after_results_simp
    _ = m ((c.tc : Thread nD τ).loc main_arg6) := rfl

/-- Argument `main_arg7` is untouched up to boundary 6: no stretch writes it and no region before has it as an array. -/
theorem kept_main_arg7_6 : W6 m ρ c (Proc.devRef .tc main_arg7) = m ((c.tc : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by
          show StableHlo.after (hostOps2 (F := Ideal)) (W4 m ρ c) (Proc.devRef .tc main_arg7) = _
          after_results_simp
    _ = W3 m ρ c (Proc.devRef .tc main_arg7) := W4_of_ne m ρ c main_arg7 (by decide)
    _ = W2 m ρ c (Proc.devRef .tc main_arg7) := by
          show StableHlo.after (hostOps1 (F := Ideal)) (W2 m ρ c) (Proc.devRef .tc main_arg7) = _
          after_results_simp
    _ = W1 m ρ c (Proc.devRef .tc main_arg7) := W2_of_ne m ρ c main_arg7 (by decide)
    _ = W0 m ρ c (Proc.devRef .tc main_arg7) := by
          show StableHlo.after (hostOps0 (F := Ideal)) (W0 m ρ c) (Proc.devRef .tc main_arg7) = _
          after_results_simp
    _ = m ((c.tc : Thread nD τ).loc main_arg7) := rfl

/-- Argument `main_arg9` is untouched up to boundary 6: no stretch writes it and no region before has it as an array. -/
theorem kept_main_arg9_6 : W6 m ρ c (Proc.devRef .tc main_arg9) = m ((c.tc : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by
          show StableHlo.after (hostOps2 (F := Ideal)) (W4 m ρ c) (Proc.devRef .tc main_arg9) = _
          after_results_simp
    _ = W3 m ρ c (Proc.devRef .tc main_arg9) := W4_of_ne m ρ c main_arg9 (by decide)
    _ = W2 m ρ c (Proc.devRef .tc main_arg9) := by
          show StableHlo.after (hostOps1 (F := Ideal)) (W2 m ρ c) (Proc.devRef .tc main_arg9) = _
          after_results_simp
    _ = W1 m ρ c (Proc.devRef .tc main_arg9) := W2_of_ne m ρ c main_arg9 (by decide)
    _ = W0 m ρ c (Proc.devRef .tc main_arg9) := by
          show StableHlo.after (hostOps0 (F := Ideal)) (W0 m ρ c) (Proc.devRef .tc main_arg9) = _
          after_results_simp
    _ = m ((c.tc : Thread nD τ).loc main_arg9) := rfl

/-- Argument `main_arg8` is untouched up to boundary 7: no stretch writes it and no region before has it as an array. -/
theorem kept_main_arg8_7 : W7 m ρ c (Proc.devRef .tc main_arg8) = m ((c.tc : Thread nD τ).loc main_arg8) :=
  calc W7 m ρ c (Proc.devRef .tc main_arg8)
    _ = W6 m ρ c (Proc.devRef .tc main_arg8) := by
          show StableHlo.after (hostOps3 (F := Ideal)) (W6 m ρ c) (Proc.devRef .tc main_arg8) = _
          after_results_simp
    _ = W5 m ρ c (Proc.devRef .tc main_arg8) := W6_of_ne m ρ c main_arg8 (by decide)
    _ = W4 m ρ c (Proc.devRef .tc main_arg8) := by
          show StableHlo.after (hostOps2 (F := Ideal)) (W4 m ρ c) (Proc.devRef .tc main_arg8) = _
          after_results_simp
    _ = W3 m ρ c (Proc.devRef .tc main_arg8) := W4_of_ne m ρ c main_arg8 (by decide)
    _ = W2 m ρ c (Proc.devRef .tc main_arg8) := by
          show StableHlo.after (hostOps1 (F := Ideal)) (W2 m ρ c) (Proc.devRef .tc main_arg8) = _
          after_results_simp
    _ = W1 m ρ c (Proc.devRef .tc main_arg8) := W2_of_ne m ρ c main_arg8 (by decide)
    _ = W0 m ρ c (Proc.devRef .tc main_arg8) := by
          show StableHlo.after (hostOps0 (F := Ideal)) (W0 m ρ c) (Proc.devRef .tc main_arg8) = _
          after_results_simp
    _ = m ((c.tc : Thread nD τ).loc main_arg8) := rfl

/-- The arcs' sources, written by the first stretch, are still there at boundary 2. -/
theorem arcs_main_v5_2 : W2 m ρ c (Proc.devRef .tc main_v5) = Cert.ReferenceIdeal.Gcn.src (F := Ideal) (m ((c.tc : Thread nD τ).loc main_arg1)) :=
  calc W2 m ρ c (Proc.devRef .tc main_v5)
    _ = W1 m ρ c (Proc.devRef .tc main_v5) := W2_of_ne m ρ c main_v5 (by decide)
    _ = Cert.ReferenceIdeal.Gcn.src (F := Ideal) (m ((c.tc : Thread nD τ).loc main_arg1)) := Stretches.sources (W0 m ρ c)

/-- The arcs' destinations, written by the first stretch, are still there at boundary 2. -/
theorem arcs_main_v6_2 : W2 m ρ c (Proc.devRef .tc main_v6) = Cert.ReferenceIdeal.Gcn.dst (F := Ideal) (m ((c.tc : Thread nD τ).loc main_arg1)) :=
  calc W2 m ρ c (Proc.devRef .tc main_v6)
    _ = W1 m ρ c (Proc.devRef .tc main_v6) := W2_of_ne m ρ c main_v6 (by decide)
    _ = Cert.ReferenceIdeal.Gcn.dst (F := Ideal) (m ((c.tc : Thread nD τ).loc main_arg1)) := Stretches.destinations (W0 m ρ c)

/-- The arcs' weights, written by the first stretch, are still there at boundary 2. -/
theorem arcs_main_v28_2 : W2 m ρ c (Proc.devRef .tc main_v28) = Cert.ReferenceIdeal.Gcn.norm (F := Ideal) (m ((c.tc : Thread nD τ).loc main_arg1)) :=
  calc W2 m ρ c (Proc.devRef .tc main_v28)
    _ = W1 m ρ c (Proc.devRef .tc main_v28) := W2_of_ne m ρ c main_v28 (by decide)
    _ = Cert.ReferenceIdeal.Gcn.norm (F := Ideal) (m ((c.tc : Thread nD τ).loc main_arg1)) := Stretches.weights (W0 m ρ c)

/-- The arcs' sources, written by the first stretch, are still there at boundary 4. -/
theorem arcs_main_v5_4 : W4 m ρ c (Proc.devRef .tc main_v5) = Cert.ReferenceIdeal.Gcn.src (F := Ideal) (m ((c.tc : Thread nD τ).loc main_arg1)) :=
  calc W4 m ρ c (Proc.devRef .tc main_v5)
    _ = W3 m ρ c (Proc.devRef .tc main_v5) := W4_of_ne m ρ c main_v5 (by decide)
    _ = W2 m ρ c (Proc.devRef .tc main_v5) := by
          show StableHlo.after (hostOps1 (F := Ideal)) (W2 m ρ c) (Proc.devRef .tc main_v5) = _
          after_results_simp
    _ = W1 m ρ c (Proc.devRef .tc main_v5) := W2_of_ne m ρ c main_v5 (by decide)
    _ = Cert.ReferenceIdeal.Gcn.src (F := Ideal) (m ((c.tc : Thread nD τ).loc main_arg1)) := Stretches.sources (W0 m ρ c)

/-- The arcs' destinations, written by the first stretch, are still there at boundary 4. -/
theorem arcs_main_v6_4 : W4 m ρ c (Proc.devRef .tc main_v6) = Cert.ReferenceIdeal.Gcn.dst (F := Ideal) (m ((c.tc : Thread nD τ).loc main_arg1)) :=
  calc W4 m ρ c (Proc.devRef .tc main_v6)
    _ = W3 m ρ c (Proc.devRef .tc main_v6) := W4_of_ne m ρ c main_v6 (by decide)
    _ = W2 m ρ c (Proc.devRef .tc main_v6) := by
          show StableHlo.after (hostOps1 (F := Ideal)) (W2 m ρ c) (Proc.devRef .tc main_v6) = _
          after_results_simp
    _ = W1 m ρ c (Proc.devRef .tc main_v6) := W2_of_ne m ρ c main_v6 (by decide)
    _ = Cert.ReferenceIdeal.Gcn.dst (F := Ideal) (m ((c.tc : Thread nD τ).loc main_arg1)) := Stretches.destinations (W0 m ρ c)

/-- The arcs' weights, written by the first stretch, are still there at boundary 4. -/
theorem arcs_main_v28_4 : W4 m ρ c (Proc.devRef .tc main_v28) = Cert.ReferenceIdeal.Gcn.norm (F := Ideal) (m ((c.tc : Thread nD τ).loc main_arg1)) :=
  calc W4 m ρ c (Proc.devRef .tc main_v28)
    _ = W3 m ρ c (Proc.devRef .tc main_v28) := W4_of_ne m ρ c main_v28 (by decide)
    _ = W2 m ρ c (Proc.devRef .tc main_v28) := by
          show StableHlo.after (hostOps1 (F := Ideal)) (W2 m ρ c) (Proc.devRef .tc main_v28) = _
          after_results_simp
    _ = W1 m ρ c (Proc.devRef .tc main_v28) := W2_of_ne m ρ c main_v28 (by decide)
    _ = Cert.ReferenceIdeal.Gcn.norm (F := Ideal) (m ((c.tc : Thread nD τ).loc main_arg1)) := Stretches.weights (W0 m ρ c)

/-- The arcs' sources, written by the first stretch, are still there at boundary 6. -/
theorem arcs_main_v5_6 : W6 m ρ c (Proc.devRef .tc main_v5) = Cert.ReferenceIdeal.Gcn.src (F := Ideal) (m ((c.tc : Thread nD τ).loc main_arg1)) :=
  calc W6 m ρ c (Proc.devRef .tc main_v5)
    _ = W5 m ρ c (Proc.devRef .tc main_v5) := W6_of_ne m ρ c main_v5 (by decide)
    _ = W4 m ρ c (Proc.devRef .tc main_v5) := by
          show StableHlo.after (hostOps2 (F := Ideal)) (W4 m ρ c) (Proc.devRef .tc main_v5) = _
          after_results_simp
    _ = W3 m ρ c (Proc.devRef .tc main_v5) := W4_of_ne m ρ c main_v5 (by decide)
    _ = W2 m ρ c (Proc.devRef .tc main_v5) := by
          show StableHlo.after (hostOps1 (F := Ideal)) (W2 m ρ c) (Proc.devRef .tc main_v5) = _
          after_results_simp
    _ = W1 m ρ c (Proc.devRef .tc main_v5) := W2_of_ne m ρ c main_v5 (by decide)
    _ = Cert.ReferenceIdeal.Gcn.src (F := Ideal) (m ((c.tc : Thread nD τ).loc main_arg1)) := Stretches.sources (W0 m ρ c)

/-- The arcs' destinations, written by the first stretch, are still there at boundary 6. -/
theorem arcs_main_v6_6 : W6 m ρ c (Proc.devRef .tc main_v6) = Cert.ReferenceIdeal.Gcn.dst (F := Ideal) (m ((c.tc : Thread nD τ).loc main_arg1)) :=
  calc W6 m ρ c (Proc.devRef .tc main_v6)
    _ = W5 m ρ c (Proc.devRef .tc main_v6) := W6_of_ne m ρ c main_v6 (by decide)
    _ = W4 m ρ c (Proc.devRef .tc main_v6) := by
          show StableHlo.after (hostOps2 (F := Ideal)) (W4 m ρ c) (Proc.devRef .tc main_v6) = _
          after_results_simp
    _ = W3 m ρ c (Proc.devRef .tc main_v6) := W4_of_ne m ρ c main_v6 (by decide)
    _ = W2 m ρ c (Proc.devRef .tc main_v6) := by
          show StableHlo.after (hostOps1 (F := Ideal)) (W2 m ρ c) (Proc.devRef .tc main_v6) = _
          after_results_simp
    _ = W1 m ρ c (Proc.devRef .tc main_v6) := W2_of_ne m ρ c main_v6 (by decide)
    _ = Cert.ReferenceIdeal.Gcn.dst (F := Ideal) (m ((c.tc : Thread nD τ).loc main_arg1)) := Stretches.destinations (W0 m ρ c)

/-- The arcs' weights, written by the first stretch, are still there at boundary 6. -/
theorem arcs_main_v28_6 : W6 m ρ c (Proc.devRef .tc main_v28) = Cert.ReferenceIdeal.Gcn.norm (F := Ideal) (m ((c.tc : Thread nD τ).loc main_arg1)) :=
  calc W6 m ρ c (Proc.devRef .tc main_v28)
    _ = W5 m ρ c (Proc.devRef .tc main_v28) := W6_of_ne m ρ c main_v28 (by decide)
    _ = W4 m ρ c (Proc.devRef .tc main_v28) := by
          show StableHlo.after (hostOps2 (F := Ideal)) (W4 m ρ c) (Proc.devRef .tc main_v28) = _
          after_results_simp
    _ = W3 m ρ c (Proc.devRef .tc main_v28) := W4_of_ne m ρ c main_v28 (by decide)
    _ = W2 m ρ c (Proc.devRef .tc main_v28) := by
          show StableHlo.after (hostOps1 (F := Ideal)) (W2 m ρ c) (Proc.devRef .tc main_v28) = _
          after_results_simp
    _ = W1 m ρ c (Proc.devRef .tc main_v28) := W2_of_ne m ρ c main_v28 (by decide)
    _ = Cert.ReferenceIdeal.Gcn.norm (F := Ideal) (m ((c.tc : Thread nD τ).loc main_arg1)) := Stretches.weights (W0 m ρ c)

/-! ## The layers -/

/-- The first region's output: the node features times the first weights. -/
theorem product1 : W2 m ρ c (Proc.devRef .tc main_v29)
    = Host.dotGeneral (F := Ideal) (φ₁ := .f32) (φ₂ := .f32) (DotDims.plain 100000 128 8) none (m ((c.tc : Thread nD τ).loc main_arg0)) (m ((c.tc : Thread nD τ).loc main_arg2)) := by
  refine (W2_arr m ρ c 2).trans ((ProjectRows.result (V1 m ρ) c).trans ?_)
  rw [show V1 m ρ c main_arg0 = m ((c.tc : Thread nD τ).loc main_arg0) from kept_main_arg0_1 m ρ c,
    show V1 m ρ c main_arg2 = m ((c.tc : Thread nD τ).loc main_arg2) from kept_main_arg2_1 m ρ c]

/-- After the second stretch: the first aggregated layer. -/
theorem layer1 : W3 m ρ c (Proc.devRef .tc main_v45) = Cert.ReferenceIdeal.Gcn.layer1 (F := Ideal) (m ((c.tc : Thread nD τ).loc main_arg0)) (m ((c.tc : Thread nD τ).loc main_arg1)) (m ((c.tc : Thread nD τ).loc main_arg2)) (m ((c.tc : Thread nD τ).loc main_arg3)) := by
  refine (Stretches.aggregate1 (W2 m ρ c)).trans ?_
  rw [arcs_main_v5_2 m ρ c, arcs_main_v6_2 m ρ c, arcs_main_v28_2 m ρ c, product1 m ρ c, kept_main_arg3_2 m ρ c]
  rfl

/-- The second region's output: tanh of the first layer times the second weights. -/
theorem product2 : W4 m ρ c (Proc.devRef .tc main_v46)
    = Host.dotGeneral (F := Ideal) (φ₁ := .f32) (φ₂ := .f32) (DotDims.plain 100000 8 8) none
        (Host.tanh (Cert.ReferenceIdeal.Gcn.layer1 (F := Ideal) (m ((c.tc : Thread nD τ).loc main_arg0)) (m ((c.tc : Thread nD τ).loc main_arg1)) (m ((c.tc : Thread nD τ).loc main_arg2)) (m ((c.tc : Thread nD τ).loc main_arg3)))) (m ((c.tc : Thread nD τ).loc main_arg4)) := by
  refine (W4_arr m ρ c 2).trans ((TanhProjectRowsA.result (V3 m ρ) c).trans ?_)
  rw [show V3 m ρ c main_v45 = _ from layer1 m ρ c, show V3 m ρ c main_arg4 = m ((c.tc : Thread nD τ).loc main_arg4) from kept_main_arg4_3 m ρ c]

/-- After the third stretch: the second aggregated layer. -/
theorem layer2 : W5 m ρ c (Proc.devRef .tc main_v62) = Cert.ReferenceIdeal.Gcn.layer2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (Stretches.aggregate2 (W4 m ρ c)).trans ?_
  rw [arcs_main_v5_4 m ρ c, arcs_main_v6_4 m ρ c, arcs_main_v28_4 m ρ c, product2 m ρ c, kept_main_arg5_4 m ρ c]
  rfl

/-- The third region's output: tanh of the second layer times the third weights. -/
theorem product3 : W6 m ρ c (Proc.devRef .tc main_v63)
    = Host.dotGeneral (F := Ideal) (φ₁ := .f32) (φ₂ := .f32) (DotDims.plain 100000 8 8) none
        (Host.tanh (Cert.ReferenceIdeal.Gcn.layer2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))) (m ((c.tc : Thread nD τ).loc main_arg6)) := by
  refine (W6_arr m ρ c 2).trans ((TanhProjectRowsB.result (V5 m ρ) c).trans ?_)
  rw [show V5 m ρ c main_v62 = _ from layer2 m ρ c, show V5 m ρ c main_arg6 = m ((c.tc : Thread nD τ).loc main_arg6) from kept_main_arg6_5 m ρ c]

/-- After the fourth stretch: the third aggregated layer. -/
theorem layer3 : W7 m ρ c (Proc.devRef .tc main_v79) = Cert.ReferenceIdeal.Gcn.layer3 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (Stretches.aggregate3 (W6 m ρ c)).trans ?_
  rw [arcs_main_v5_6 m ρ c, arcs_main_v6_6 m ρ c, arcs_main_v28_6 m ρ c, product3 m ρ c, kept_main_arg7_6 m ρ c]
  rfl

/-- After the fourth stretch: the classifier's bias as a row. -/
theorem biasRow : W7 m ρ c (Proc.devRef .tc main_v80) = shapeCast S1x4 (m ((c.tc : Thread nD τ).loc main_arg9)) shapeCasts_S4_S1x4 := by
  refine (Stretches.biasRow (W6 m ρ c)).trans ?_
  rw [kept_main_arg9_6 m ρ c]

/-- THE KERNEL'S RESULT: the last boundary's contents at the result buffer are the graph convolution of the arguments. -/
theorem result : W8 m ρ c (Proc.devRef .tc main_v81) = Cert.ReferenceIdeal.Gcn.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W8_arr m ρ c 3).trans ((ClassifierRows.result (V7 m ρ) c).trans ?_)
  rw [show V7 m ρ c main_v79 = _ from layer3 m ρ c, show V7 m ρ c main_arg8 = m ((c.tc : Thread nD τ).loc main_arg8) from kept_main_arg8_7 m ρ c,
    show V7 m ρ c main_v80 = _ from biasRow m ρ c]
  exact RowsProduct.addRow_reshape_eq 100000 4 _ (m ((c.tc : Thread nD τ).loc main_arg9)) (by decide) _ Cert.ReferenceIdeal.Gen.bcast_S4_S1x4_1
    Cert.ReferenceIdeal.Gen.bcast_S1x4_S100000x4_0_1

end Cert.KernelIdeal.Net

end
-- ==== Proof.ReferenceIsGcn.lean ====
/-
  The idealized reference computes the graph convolution `Gcn.out` of its arguments.

  The reference's generated run states its result as one composed term of the launch contents of the arguments, with the
  arcs' weights written out again in every layer. That term is `Gcn.out` with its definitions unfolded: the same
  operations in the same order, so the equation is by unfolding alone.
-/
import proofs.«103893_j20023137534525_2_alg».proof.Proof.Gen.ReferenceIdeal.Run
import proofs.«103893_j20023137534525_2_alg».proof.Proof.Gcn

set_option maxRecDepth 16384

noncomputable section

namespace Cert.ReferenceIdeal.Gcn

open Cert.ReferenceIdeal Idealize.ShloMosaic Idealize.ShloMosaic.TcCoe Idealize.SL.Sem

variable {F : FTy → Type} [FloatOps F]

/-- The reference run's result term is `Gcn.out` of the ten arguments' launch contents. -/
theorem res_eq (m : (ℓ : Loc nD τ sig) → Buf (Elt F) ℓ) (c : Dev nD) :
    Cert.ReferenceIdeal.Value.res_main_v116 m c
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v116
  rfl

end Cert.ReferenceIdeal.Gcn

end
-- ==== Proof.lean ====
/-
  A three-layer graph convolution network with a linear classifier: the Pallas kernel against its jnp reference,
  equal on the extended reals.

  Both programs compute, on a graph of 100000 nodes and 3200000 edges (plus a self-loop per node),
      out = tanh(A(tanh(A(tanh(A(x W1) + b1) W2) + b2) W3) + b3) Wc + bc,
  where A sends per-node features h to the sum over the arcs into each node of dinv(source) dinv(destination) h(source),
  dinv = max(degree, 1)^(-1/2) (Proof/Gcn.lean writes this once, in the host's own operations). The reference computes
  the four matrix products with the host's dot_general. The kernel computes each of them in a Pallas region that tiles
  the 100000 rows over ten grid points, casts to bf16 and multiplies into a zero accumulator, with the tanh fused in front
  of the second to fourth product and the classifier's bias added inside the fourth; the aggregation A stays on the host
  in both, in the same operations.

  At the exact instance a float format change is the identity and both products are the plain sum over k of
  x(r, k) w(k, c) (Proof/LibPlainDot.lean); an entry of a product reads one row of the left operand, so ten blocks of
  10000 rows give the whole product (Proof/LibRowsProduct.lean, and the four row-tiling files). No law used needs a
  finite value, so the precondition is never opened. The kernel's result is read off its generated frame's boundary
  contents (Proof/KernelRun.lean, Proof/KernelNet.lean); the reference's generated run states its result as one term,
  which is Gcn.out by unfolding (Proof/ReferenceIsGcn.lean).

  The three frames: the two kernels' are the generated ones; the reference's is its generated run with the result
  dropped. The ideal pass rewrote nothing, so `preserves` is `True`.
-/
import proofs.«103893_j20023137534525_2_alg».proof.Defs
import proofs.«103893_j20023137534525_2_alg».proof.Proof.Gen.Kernel
import proofs.«103893_j20023137534525_2_alg».proof.Proof.Gen.Kernel.Skeleton
import proofs.«103893_j20023137534525_2_alg».proof.Proof.Gen.Kernel.Launch
import proofs.«103893_j20023137534525_2_alg».proof.Proof.Gen.Kernel.Points
import proofs.«103893_j20023137534525_2_alg».proof.Proof.Gen.Kernel.Frame
import proofs.«103893_j20023137534525_2_alg».proof.Proof.Gen.KernelIdeal
import proofs.«103893_j20023137534525_2_alg».proof.Proof.Gen.KernelIdeal.Skeleton
import proofs.«103893_j20023137534525_2_alg».proof.Proof.Gen.KernelIdeal.Launch
import proofs.«103893_j20023137534525_2_alg».proof.Proof.Gen.KernelIdeal.Points
import proofs.«103893_j20023137534525_2_alg».proof.Proof.Gen.KernelIdeal.Frame
import proofs.«103893_j20023137534525_2_alg».proof.Proof.Gen.ReferenceIdeal
import proofs.«103893_j20023137534525_2_alg».proof.Proof.Gen.Pre_finite_inputs
import proofs.«103893_j20023137534525_2_alg».proof.Proof.Gen.ReferenceIdeal.Run
import proofs.«103893_j20023137534525_2_alg».proof.Proof.KernelNet
import proofs.«103893_j20023137534525_2_alg».proof.Proof.ReferenceIsGcn
import Idealize.ShloMosaic.Adequacy
import Idealize.ShloMosaic.Init

set_option maxRecDepth 16384

noncomputable section

namespace Cert.Proof

open Idealize.ShloMosaic Idealize.SL.Sem

/-- The word-level kernel's frame: generated whole (four class-A regions). -/
theorem frame_kernel : Cert.frame_Kernel := fun m ρ _ => Cert.Kernel.Gen.frame m ρ

/-- The idealized kernel's frame: generated whole. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the ten arguments, both programs end with the graph convolution `Gcn.out` of the
    arguments in their result buffers. -/
theorem algebraic : Cert.algebraic_KernelIdeal_ReferenceIdeal := by
  intro m ρ m' ρ' _ hagree
  refine ⟨fun c => Cert.ReferenceIdeal.Gcn.out (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    ?_, ?_⟩
  · exact (θ_run Cert.KernelIdeal.defs _ _).mono
      (fun _ h c => ⟨(h c).1.trans (Cert.KernelIdeal.Net.result m ρ c), (h c).2⟩) (Cert.KernelIdeal.Ran.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Gcn.res_eq]
    obtain ⟨a0, a1, a2, a3, a4, a5, a6, a7, a8, a9⟩ := hagree c
    rw [a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
